-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S65536x256 : Shape := ⟨2, ![65536, 256]⟩
abbrev S512x256 : Shape := ⟨2, ![512, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  main_v18

def fn {F : FTy → Type} [FloatOps F] (main_arg0 : IVec S65536 32) (main_arg1 : IVec S65536 32) (main_arg2 : FVec F S65536x256 .f32) (main_arg3 : FVec F S65536x256 .f32) (main_arg4 : FVec F S512x256 .f32) (main_arg5 : FVec F S512x256 .f32) : IVec S_ 1 :=
  let main_v0 : FVec F S65536x256 .f32 := Host.absf main_arg2
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg3
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x256 .f32 := Host.absf main_arg5
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_v13 main_v16
-- ==== Kernel.lean ====
abbrev S65536 : Shape := ⟨1, ![65536]⟩
abbrev S65536x256 : Shape := ⟨2, ![65536, 256]⟩
abbrev S512x256 : Shape := ⟨2, ![512, 256]⟩
abbrev S65536x1 : Shape := ⟨2, ![65536, 1]⟩
abbrev S1x1 : Shape := ⟨2, ![1, 1]⟩
abbrev S2048x1 : Shape := ⟨2, ![2048, 1]⟩
abbrev S2048x256 : Shape := ⟨2, ![2048, 256]⟩
abbrev S2048x512 : Shape := ⟨2, ![2048, 512]⟩
abbrev S256x512 : Shape := ⟨2, ![256, 512]⟩
abbrev S2048 : Shape := ⟨1, ![2048]⟩
abbrev S1x2048x1 : Shape := ⟨3, ![1, 2048, 1]⟩
abbrev S1 : Shape := ⟨1, ![1]⟩
abbrev S1x1x1 : Shape := ⟨3, ![1, 1, 1]⟩
abbrev S_ : Shape := ⟨0, ![]⟩

abbrev nBuf : Space → Nat
  | .hbm => 10
  | .vmem => 13
  | .smem => 0
  | _ => 0

abbrev bufTy : (tb : Table) → Fin (tcTables nBuf tb) → BufTy
  | .hbm, ⟨0, _⟩ => ⟨S65536, .i32⟩
  | .hbm, ⟨1, _⟩ => ⟨S65536, .i32⟩
  | .hbm, ⟨2, _⟩ => ⟨S65536x256, .f32⟩
  | .hbm, ⟨3, _⟩ => ⟨S65536x256, .f32⟩
  | .hbm, ⟨4, _⟩ => ⟨S512x256, .f32⟩
  | .hbm, ⟨5, _⟩ => ⟨S512x256, .f32⟩
  | .hbm, ⟨6, _⟩ => ⟨S65536x1, .i32⟩
  | .hbm, ⟨7, _⟩ => ⟨S65536x1, .i32⟩
  | .hbm, ⟨8, _⟩ => ⟨S1x1, .f32⟩
  | .hbm, ⟨9, _⟩ => ⟨S_, .f32⟩
  | .local _ .vmem, ⟨0, _⟩ => ⟨S2048x1, .i32⟩
  | .local _ .vmem, ⟨1, _⟩ => ⟨S2048x1, .i32⟩
  | .local _ .vmem, ⟨2, _⟩ => ⟨S2048x1, .i32⟩
  | .local _ .vmem, ⟨3, _⟩ => ⟨S2048x1, .i32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S512x256, .f32⟩
  | .local _ .vmem, ⟨9, _⟩ => ⟨S512x256, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S65536_S65536x1 : S65536.ShapeCasts S65536x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x512_d1_w32 : S2048x512.Iotas .tc 32 [1]
  broadcasts_S2048x1_S2048x512 : S2048x1.Broadcasts S2048x512
  natLt_1_32 : 1 < 32
  transposes_S512x256_p1_0_S256x512 : S512x256.Transposes [1, 0] S256x512
  reduces_S2048x512_S2048 : S2048x512.Reduces [1] S2048
  shapeCasts_S2048_S2048x1 : S2048.ShapeCasts S2048x1
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S65536x1.size a
  hwx0_0 : ∀ i : grid0.Coords, EltTy.bits .i32 = 32 ∨ (Rect.block (s := S65536x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S65536x1.size a
  hwx0_1 : ∀ i : grid0.Coords, EltTy.bits .i32 = 32 ∨ (Rect.block (s := S65536x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S65536x256.size a
  hwx0_2 : ∀ i : grid0.Coords, EltTy.bits .f32 = 32 ∨ (Rect.block (s := S65536x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S65536x256.size a
  hwx0_3 : ∀ i : grid0.Coords, EltTy.bits .f32 = 32 ∨ (Rect.block (s := S65536x256) S2048x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_v0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536 : Shape := ⟨1, ![65536]⟩
abbrev S65536x256 : Shape := ⟨2, ![65536, 256]⟩
abbrev S512x256 : Shape := ⟨2, ![512, 256]⟩
abbrev S65536x1 : Shape := ⟨2, ![65536, 1]⟩
abbrev S1x512 : Shape := ⟨2, ![1, 512]⟩
abbrev S65536x512 : Shape := ⟨2, ![65536, 512]⟩
abbrev S256x512 : Shape := ⟨2, ![256, 512]⟩
abbrev S_ : Shape := ⟨0, ![]⟩

abbrev nBuf : Space → Nat
  | .hbm => 121
  | .vmem => 0
  | .smem => 0
  | _ => 0

abbrev bufTy : (tb : Table) → Fin (tcTables nBuf tb) → BufTy
  | .hbm, ⟨0, _⟩ => ⟨S65536, .i32⟩
  | .hbm, ⟨1, _⟩ => ⟨S65536, .i32⟩
  | .hbm, ⟨2, _⟩ => ⟨S65536x256, .f32⟩
  | .hbm, ⟨3, _⟩ => ⟨S65536x256, .f32⟩
  | .hbm, ⟨4, _⟩ => ⟨S512x256, .f32⟩
  | .hbm, ⟨5, _⟩ => ⟨S512x256, .f32⟩
  | .hbm, ⟨6, _⟩ => ⟨S65536x1, .i32⟩
  | .hbm, ⟨7, _⟩ => ⟨S1x512, .i32⟩
  | .hbm, ⟨8, _⟩ => ⟨S65536x512, .i32⟩
  | .hbm, ⟨9, _⟩ => ⟨S65536x512, .i32⟩
  | .hbm, ⟨10, _⟩ => ⟨S65536x512, .i1⟩
  | .hbm, ⟨11, _⟩ => ⟨S65536x512, .f32⟩
  | .hbm, ⟨12, _⟩ => ⟨S65536x1, .i32⟩
  | .hbm, ⟨13, _⟩ => ⟨S1x512, .i32⟩
  | .hbm, ⟨14, _⟩ => ⟨S65536x512, .i32⟩
  | .hbm, ⟨15, _⟩ => ⟨S65536x512, .i32⟩
  | .hbm, ⟨16, _⟩ => ⟨S65536x512, .i1⟩
  | .hbm, ⟨17, _⟩ => ⟨S65536x512, .f32⟩
  | .hbm, ⟨18, _⟩ => ⟨S256x512, .f32⟩
  | .hbm, ⟨19, _⟩ => ⟨S65536x512, .f32⟩
  | .hbm, ⟨20, _⟩ => ⟨S65536x512, .f32⟩
  | .hbm, ⟨21, _⟩ => ⟨S256x512, .f32⟩
  | .hbm, ⟨22, _⟩ => ⟨S65536x512, .f32⟩
  | .hbm, ⟨23, _⟩ => ⟨S65536x512, .f32⟩
  | .hbm, ⟨24, _⟩ => ⟨S256x512, .f32⟩
  | .hbm, ⟨25, _⟩ => ⟨S65536x512, .f32⟩
  | .hbm, ⟨26, _⟩ => ⟨S65536x512, .f32⟩
  | .hbm, ⟨27, _⟩ => ⟨S256x512, .f32⟩
  | .hbm, ⟨28, _⟩ => ⟨S65536x512, .f32⟩
  | .hbm, ⟨29, _⟩ => ⟨S65536x512, .f32⟩
  | .hbm, ⟨30, _⟩ => ⟨S65536x512, .f32⟩
  | .hbm, ⟨31, _⟩ => ⟨S_, .f32⟩
  | .hbm, ⟨32, _⟩ => ⟨S65536x512, .f32⟩
  | .hbm, ⟨33, _⟩ => ⟨S65536x512, .f32⟩
  | .hbm, ⟨34, _⟩ => ⟨S65536x512, .f32⟩
  | .hbm, ⟨35, _⟩ => ⟨S65536x512, .f32⟩
  | .hbm, ⟨36, _⟩ => ⟨S65536x512, .i1⟩
  | .hbm, ⟨37, _⟩ => ⟨S65536x512, .f32⟩
  | .hbm, ⟨38, _⟩ => ⟨S65536x512, .f32⟩
  | .hbm, ⟨39, _⟩ => ⟨S65536x512, .f32⟩
  | .hbm, ⟨40, _⟩ => ⟨S65536x512, .f32⟩
  | .hbm, ⟨41, _⟩ => ⟨S65536x512, .f32⟩
  | .hbm, ⟨42, _⟩ => ⟨S65536x512, .f32⟩
  | .hbm, ⟨43, _⟩ => ⟨S65536x512, .f32⟩
  | .hbm, ⟨44, _⟩ => ⟨S65536x512, .f32⟩
  | .hbm, ⟨45, _⟩ => ⟨S_, .f32⟩
  | .hbm, ⟨46, _⟩ => ⟨S65536x512, .f32⟩
  | .hbm, ⟨47, _⟩ => ⟨S65536x512, .f32⟩
  | .hbm, ⟨48, _⟩ => ⟨S_, .f32⟩
  | .hbm, ⟨49, _⟩ => ⟨S65536, .f32⟩
  | .hbm, ⟨50, _⟩ => ⟨S65536x512, .f32⟩
  | .hbm, ⟨51, _⟩ => ⟨S_, .f32⟩
  | .hbm, ⟨52, _⟩ => ⟨S65536x512, .f32⟩
  | .hbm, ⟨53, _⟩ => ⟨S65536x512, .f32⟩
  | .hbm, ⟨54, _⟩ => ⟨S65536x512, .f32⟩
  | .hbm, ⟨55, _⟩ => ⟨S65536x512, .f32⟩
  | .hbm, ⟨56, _⟩ => ⟨S65536x512, .i1⟩
  | .hbm, ⟨57, _⟩ => ⟨S65536x512, .f32⟩
  | .hbm, ⟨58, _⟩ => ⟨S65536x512, .f32⟩
  | .hbm, ⟨59, _⟩ => ⟨S65536x512, .f32⟩
  | .hbm, ⟨60, _⟩ => ⟨S65536x512, .f32⟩
  | .hbm, ⟨61, _⟩ => ⟨S65536x512, .f32⟩
  | .hbm, ⟨62, _⟩ => ⟨S65536x512, .f32⟩
  | .hbm, ⟨63, _⟩ => ⟨S65536x512, .f32⟩
  | .hbm, ⟨64, _⟩ => ⟨S65536x512, .f32⟩
  | .hbm, ⟨65, _⟩ => ⟨S_, .f32⟩
  | .hbm, ⟨66, _⟩ => ⟨S65536x512, .f32⟩
  | .hbm, ⟨67, _⟩ => ⟨S65536x512, .f32⟩
  | .hbm, ⟨68, _⟩ => ⟨S_, .f32⟩
  | .hbm, ⟨69, _⟩ => ⟨S65536, .f32⟩
  | .hbm, ⟨70, _⟩ => ⟨S65536x512, .f32⟩
  | .hbm, ⟨71, _⟩ => ⟨S_, .f32⟩
  | .hbm, ⟨72, _⟩ => ⟨S65536x512, .f32⟩
  | .hbm, ⟨73, _⟩ => ⟨S65536x512, .f32⟩
  | .hbm, ⟨74, _⟩ => ⟨S65536x512, .f32⟩
  | .hbm, ⟨75, _⟩ => ⟨S65536x512, .f32⟩
  | .hbm, ⟨76, _⟩ => ⟨S65536x512, .i1⟩
  | .hbm, ⟨77, _⟩ => ⟨S65536x512, .f32⟩
  | .hbm, ⟨78, _⟩ => ⟨S65536x512, .f32⟩
  | .hbm, ⟨79, _⟩ => ⟨S65536x512, .f32⟩
  | .hbm, ⟨80, _⟩ => ⟨S65536x512, .f32⟩
  | .hbm, ⟨81, _⟩ => ⟨S65536x512, .f32⟩
  | .hbm, ⟨82, _⟩ => ⟨S65536x512, .f32⟩
  | .hbm, ⟨83, _⟩ => ⟨S65536x512, .f32⟩
  | .hbm, ⟨84, _⟩ => ⟨S65536x512, .f32⟩
  | .hbm, ⟨85, _⟩ => ⟨S_, .f32⟩
  | .hbm, ⟨86, _⟩ => ⟨S65536x512, .f32⟩
  | .hbm, ⟨87, _⟩ => ⟨S65536x512, .f32⟩
  | .hbm, ⟨88, _⟩ => ⟨S_, .f32⟩
  | .hbm, ⟨89, _⟩ => ⟨S65536, .f32⟩
  | .hbm, ⟨90, _⟩ => ⟨S65536x512, .f32⟩
  | .hbm, ⟨91, _⟩ => ⟨S_, .f32⟩
  | .hbm, ⟨92, _⟩ => ⟨S65536x512, .f32⟩
  | .hbm, ⟨93, _⟩ => ⟨S65536x512, .f32⟩
  | .hbm, ⟨94, _⟩ => ⟨S65536x512, .f32⟩
  | .hbm, ⟨95, _⟩ => ⟨S65536x512, .f32⟩
  | .hbm, ⟨96, _⟩ => ⟨S65536x512, .i1⟩
  | .hbm, ⟨97, _⟩ => ⟨S65536x512, .f32⟩
  | .hbm, ⟨98, _⟩ => ⟨S65536x512, .f32⟩
  | .hbm, ⟨99, _⟩ => ⟨S65536x512, .f32⟩
  | .hbm, ⟨100, _⟩ => ⟨S65536x512, .f32⟩
  | .hbm, ⟨101, _⟩ => ⟨S65536x512, .f32⟩
  | .hbm, ⟨102, _⟩ => ⟨S65536x512, .f32⟩
  | .hbm, ⟨103, _⟩ => ⟨S65536x512, .f32⟩
  | .hbm, ⟨104, _⟩ => ⟨S65536x512, .f32⟩
  | .hbm, ⟨105, _⟩ => ⟨S_, .f32⟩
  | .hbm, ⟨106, _⟩ => ⟨S65536x512, .f32⟩
  | .hbm, ⟨107, _⟩ => ⟨S65536x512, .f32⟩
  | .hbm, ⟨108, _⟩ => ⟨S_, .f32⟩
  | .hbm, ⟨109, _⟩ => ⟨S65536, .f32⟩
  | .hbm, ⟨110, _⟩ => ⟨S65536, .f32⟩
  | .hbm, ⟨111, _⟩ => ⟨S65536, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S65536, .f32⟩
  | .hbm, ⟨116, _⟩ => ⟨S65536, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call2_cst : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_v15 : Ref sig .tc := ⟨.hbm, 44, rfl⟩
abbrev main_cst : Ref sig .tc := ⟨.hbm, 45, rfl⟩
abbrev main_v16 : Ref sig .tc := ⟨.hbm, 46, rfl⟩
abbrev main_v17 : Ref sig .tc := ⟨.hbm, 47, rfl⟩
abbrev main_cst_0 : Ref sig .tc := ⟨.hbm, 48, rfl⟩
abbrev main_v18 : Ref sig .tc := ⟨.hbm, 49, rfl⟩
abbrev main_v19 : Ref sig .tc := ⟨.hbm, 50, rfl⟩
abbrev main_call3_cst : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_v9 : Ref sig .tc := ⟨.hbm, 61, rfl⟩
abbrev main_call3_v10 : Ref sig .tc := ⟨.hbm, 62, rfl⟩
abbrev main_call3_v11 : Ref sig .tc := ⟨.hbm, 63, rfl⟩
abbrev main_v20 : Ref sig .tc := ⟨.hbm, 64, rfl⟩
abbrev main_cst_1 : Ref sig .tc := ⟨.hbm, 65, rfl⟩
abbrev main_v21 : Ref sig .tc := ⟨.hbm, 66, rfl⟩
abbrev main_v22 : Ref sig .tc := ⟨.hbm, 67, rfl⟩
abbrev main_cst_2 : Ref sig .tc := ⟨.hbm, 68, rfl⟩
abbrev main_v23 : Ref sig .tc := ⟨.hbm, 69, rfl⟩
abbrev main_v24 : Ref sig .tc := ⟨.hbm, 70, rfl⟩
abbrev main_call4_cst : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_v5 : Ref sig .tc := ⟨.hbm, 77, rfl⟩
abbrev main_call4_v6 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_call4_v11 : Ref sig .tc := ⟨.hbm, 83, rfl⟩
abbrev main_v25 : Ref sig .tc := ⟨.hbm, 84, rfl⟩
abbrev main_cst_3 : Ref sig .tc := ⟨.hbm, 85, rfl⟩
abbrev main_v26 : Ref sig .tc := ⟨.hbm, 86, rfl⟩
abbrev main_v27 : Ref sig .tc := ⟨.hbm, 87, rfl⟩
abbrev main_cst_4 : Ref sig .tc := ⟨.hbm, 88, rfl⟩
abbrev main_v28 : Ref sig .tc := ⟨.hbm, 89, rfl⟩
abbrev main_v29 : Ref sig .tc := ⟨.hbm, 90, rfl⟩
abbrev main_call5_cst : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_call5_v3 : Ref sig .tc := ⟨.hbm, 95, rfl⟩
abbrev main_call5_v4 : Ref sig .tc := ⟨.hbm, 96, rfl⟩
abbrev main_call5_v5 : Ref sig .tc := ⟨.hbm, 97, rfl⟩
abbrev main_call5_v6 : Ref sig .tc := ⟨.hbm, 98, rfl⟩
abbrev main_call5_v7 : Ref sig .tc := ⟨.hbm, 99, rfl⟩
abbrev main_call5_v8 : Ref sig .tc := ⟨.hbm, 100, rfl⟩
abbrev main_call5_v9 : Ref sig .tc := ⟨.hbm, 101, rfl⟩
abbrev main_call5_v10 : Ref sig .tc := ⟨.hbm, 102, rfl⟩
abbrev main_call5_v11 : Ref sig .tc := ⟨.hbm, 103, rfl⟩
abbrev main_v30 : Ref sig .tc := ⟨.hbm, 104, rfl⟩
abbrev main_cst_5 : Ref sig .tc := ⟨.hbm, 105, rfl⟩
abbrev main_v31 : Ref sig .tc := ⟨.hbm, 106, rfl⟩
abbrev main_v32 : Ref sig .tc := ⟨.hbm, 107, rfl⟩
abbrev main_cst_6 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_cst_7 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_cst_8 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩

abbrev nD : Nat := 1
abbrev τ : Topo := Topo.v7x

variable {F : FTy → Type} [FloatOps F]

class Facts₀ : Prop where
  bcast_S65536_S65536x1_0 : S65536.BroadcastsInDim S65536x1 (![0] : Fin 1 → Fin S65536x1.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  transposes_S512x256_S256x512_1_0 : S512x256.Transposes [1, 0] S256x512
  bcast_S_S65536x512 : S_.BroadcastsInDim S65536x512 (![] : Fin 0 → Fin S65536x512.rank)
  reducesTo_S65536x512_S65536_d1 : S65536x512.ReducesTo [1] S65536
  h_S_ : 0 < S_.numel
  reducesTo_S65536_S_d0 : S65536.ReducesTo [0] S_
  dot_S65536x256_S256x512_S65536x512_1_0_0_1_n_n_wf : DotDims.WF S65536x256 S256x512 S65536x512 [1] [0] [0] [1] [] []

variable [Facts₀]

def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf

class Facts : Prop extends Facts₀ where

variable [Facts]
-- ==== Proof.Loss.lean ====
/-
  The quantity both programs compute, written once over the extended reals, and the few laws that join their spellings.

  For a node with feature row z, graph label b, and graph embeddings g k ·, the masked similarity to graph k is
  s k = (∑ d, z d * g k d) * [b = k]; the node's score against g is J = ∑ k, (log2 − softplus (− s k)); the loss is
  sqrt (∑ n, (J₁₁ n − J₁₂ n)²) + sqrt (∑ n, (J₂₂ n − J₂₁ n)²) over all nodes n.

  Nothing here needs finiteness: the two programs apply the same entry-wise functions to the same sums, and differ only in
  how they spell a negation (0 − x against −x), a never-taken guard (x ≠ x), a 0/1 bit read as a number, and in the order
  in which the node sum is taken (all at once, or tile by tile) — commutativity and associativity of + on the extended reals.
-/
import Idealize.ShloMosaic.PureOps.Ideal
import Idealize.ShloMosaic.PureOps.Ideal.Laws
import Idealize.ShloMosaic.Lib.ValueIdx
import Mathlib.Algebra.BigOperators.Fin

noncomputable section

namespace Cert.Loss

open Idealize.ShloMosaic

/-! ## The scalar functions -/

/-- log 2 as the f32 word both programs carry. -/
def log2w : EReal := Ideal.ofBits .f32 0x3F317218#32

/-- softplus x = max x 0 + log (1 + e^{-|x|}), the overflow-free form of log (1 + eˣ). -/
def softplus (x : EReal) : EReal := max x 0 + Ideal.log1p (Ideal.exp (-(max x (-x))))

/-- The Jensen–Shannon positive expectation of a similarity s. -/
def jsd (s : EReal) : EReal := log2w - softplus (-s)

/-- The one-hot entry: 1 where the label is the graph's number, 0 elsewhere (a bit read as a number). -/
def hot (b k : BitVec 32) : EReal := (((IntOp.cmpi .eq b k).toNat : ℝ) : EReal)

/-- A node's score against the embeddings g: the sum over graphs of jsd of the masked similarity. -/
def score {G D : ℕ} (z : Fin D → EReal) (g : Fin G → Fin D → EReal) (b : BitVec 32) : EReal :=
  ∑ k : Fin G, jsd ((∑ d : Fin D, z d * g k d) * hot b (BitVec.ofNat 32 k.val))

/-- The squared gap between a node's scores against two sets of embeddings. -/
def gapSq {G D : ℕ} (z : Fin D → EReal) (g g' : Fin G → Fin D → EReal) (b : BitVec 32) : EReal :=
  (score z g b - score z g' b) * (score z g b - score z g' b)

/-- The loss: the two L2 norms over the nodes, added. -/
def loss {N G D : ℕ} (z1 z2 : Fin N → Fin D → EReal) (g1 g2 : Fin G → Fin D → EReal) (b1 b2 : Fin N → BitVec 32) : EReal :=
  Ideal.sqrt (∑ n : Fin N, gapSq (z1 n) g1 g2 (b1 n)) + Ideal.sqrt (∑ n : Fin N, gapSq (z2 n) g2 g1 (b2 n))

/-! ## The two printed spellings of log2 − softplus -/

/-- x ≠ x never holds on the extended reals, in either comparison's spelling. -/
theorem cmp_one_self (d : EReal) : Ideal.cmp .one d d = 0#1 := by simp [Ideal.cmp]
theorem cmp_une_self (d : EReal) : Ideal.cmp .une d d = 0#1 := by simp [Ideal.cmp]

/-- The spelling with 0 − · for a negation and an ordered x ≠ x guard, at a zero word z and an argument x. -/
def spA (z x : EReal) : EReal :=
  log2w - Scalar.select (Ideal.cmp .one (x - z) (x - z)) (x + z)
    (max x z + Ideal.log1p (Ideal.exp (z - max (x - z) (-(x - z)))))

/-- The spelling with −· and an unordered x ≠ x guard. -/
def spB (z x : EReal) : EReal :=
  log2w - Scalar.select (Ideal.cmp .une (x - z) (x - z)) (x + z)
    (max x z + Ideal.log1p (Ideal.exp (-(max (x - z) (-(x - z))))))

theorem spA_zero (x : EReal) : spA (Ideal.ofBits .f32 0x00000000#32) x = log2w - softplus x := by
  unfold spA softplus
  rw [Ideal.ofBits_zero_f32, sub_zero, cmp_one_self, ValueIdx.select_zero, zero_sub]

theorem spB_zero (x : EReal) : spB (Ideal.ofBits .f32 0x00000000#32) x = log2w - softplus x := by
  unfold spB softplus
  rw [Ideal.ofBits_zero_f32, sub_zero, cmp_une_self, ValueIdx.select_zero]

/-- With the argument negated as 0 − s: jsd. -/
theorem spA_neg (s : EReal) : spA (Ideal.ofBits .f32 0x00000000#32) (Ideal.ofBits .f32 0x00000000#32 - s) = jsd s := by
  rw [spA_zero, Ideal.ofBits_zero_f32, zero_sub]; rfl

/-- With the argument negated as −s: jsd. -/
theorem spB_neg (s : EReal) : spB (Ideal.ofBits .f32 0x00000000#32) (-s) = jsd s := by
  rw [spB_zero]; rfl

/-! ## A 0/1 bit read as a number -/

/-- A bit widened to 32 bits and read signed is the bit read unsigned. -/
theorem toInt_setWidth_bit : ∀ c : BitVec 1, (c.setWidth 32).toInt = (c.toNat : ℤ) := by decide

/-- So the one-hot entry built by widening and a signed conversion is the one built by an unsigned conversion. -/
theorem hot_signed (b k : BitVec 32) :
    ((((IntOp.cmpi .eq b k).setWidth 32).toInt : ℝ) : EReal) = hot b k := by
  unfold hot
  rw [toInt_setWidth_bit]
  norm_cast

/-! ## A sum over all nodes is the sum over tiles of the sums inside each tile -/

/-- The node with position r in tile t, for tiles of R nodes. -/
def node {T R : ℕ} (t : Fin T) (r : Fin R) : Fin (T * R) := finProdFinEquiv (t, r)

theorem node_val {T R : ℕ} (t : Fin T) (r : Fin R) : (node t r).val = r.val + R * t.val := rfl

theorem sum_tiles {M : Type*} [AddCommMonoid M] {T R : ℕ} (f : Fin (T * R) → M) :
    ∑ n : Fin (T * R), f n = ∑ t : Fin T, ∑ r : Fin R, f (node t r) := by
  rw [← Equiv.sum_comp (finProdFinEquiv (m := T) (n := R)) f, Fintype.sum_prod_type]
  rfl

end Cert.Loss

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibIdx3.lean ====
/-
  Sums over a rank-3 index set.

  An index of an `[n0, n1, n2]` array is its three coordinates, so a sum over the whole index set — what a reduction
  over all three axes at once computes — is the triple sum over the coordinates, the leading axis outermost.  This is
  the step between a total taken in one go and the same total taken slice by slice along the leading axis.
-/
import Idealize.ShloMosaic.Lib.ValueIdx

noncomputable section

namespace Idealize.ShloMosaic.Idx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.Idx3

end
-- ==== Proof.Tile.lean ====
/-
  One tile of the kernel, as values.

  At a grid point the body sees a tile of 2048 nodes: their labels b (a column), their feature rows z, and all 512
  graph embeddings g.  It forms the masked similarities s r k = (∑ d, z r d * g k d) * [b r = k], the row scores
  J r = ∑ k, (log2 − softplus (− s r k)), and adds the tile's ∑ r, (J r − J' r)² to a one-element accumulator.

  The body spells these four times (two feature blocks against two embedding blocks); the four spellings are one
  function of their blocks, at any float instance, by unfolding alone.  What is proved by reading is only: the one-hot
  row, the product, the row score, the tile total, each at an index at the ideal values.
-/
import proofs.«128601_j49959059587770_1_alg».proof.Proof.Gen.KernelIdeal.Skeleton
import proofs.«128601_j49959059587770_1_alg».proof.Proof.Loss
import proofs.«128601_j49959059587770_1_alg».proof.Proof.LibRowReduce
import proofs.«128601_j49959059587770_1_alg».proof.Proof.LibPlainDot
import proofs.«128601_j49959059587770_1_alg».proof.Proof.LibColumns
import proofs.«128601_j49959059587770_1_alg».proof.Proof.LibIdx3
import Idealize.ShloMosaic.Lib.ValueIdx
import Idealize.ShloMosaic.Lib.Pipeline.Value
import Idealize.ShloMosaic.PureOps.Ideal.Laws

noncomputable section

namespace Cert.Tile

open Idealize.ShloMosaic Idealize.ShloMosaic.ValueIdx Cert.KernelIdeal Cert.KernelIdeal.Gen

/-! ## The body's four spellings are one function of their blocks -/

section AnyInstance
variable {F : FTy → Type} [FloatOps F]

/-- The masked similarities of the second feature block against the second embeddings: the first spelling. -/
theorem pay12_eq (z : Vec F S2048x256 .f32) (g : Vec F S512x256 .f32) (b : Vec F S2048x1 .i32) :
    k0_pay12 z g b = k0_pay11 z g b := rfl

/-- … and against the first embeddings. -/
theorem pay13_eq (z : Vec F S2048x256 .f32) (g : Vec F S512x256 .f32) (b : Vec F S2048x1 .i32) :
    k0_pay13 z g b = k0_pay11 z g b := rfl

/-- The row scores taken from similarities negated beforehand are the row scores of the similarities. -/
theorem pay15_eq (z : Vec F S2048x256 .f32) (g : Vec F S512x256 .f32) (b : Vec F S2048x1 .i32) :
    k0_pay15 (k0_pay14 z g b) (Scalar.ofBits .f32 0x00000000#32) = k0_pay16 (k0_pay11 z g b) := rfl

/-- The squared score gaps of the second pair, spelt across three stretches of the body, as a function of the two
    similarity blocks. -/
theorem pay25_eq (s21 s22 : FVec F S2048x512 .f32) :
    k0_pay25 s21 (k0_pay18 s22) (k0_pay20 s22) (k0_pay21 s22) (k0_pay22 s22) k0_pay23
      = shapeCast S1x2048x1 (mulf (subf (k0_pay16 s22) (k0_pay16 s21)) (subf (k0_pay16 s22) (k0_pay16 s21)))
          Facts₀.shapeCasts_S2048x1_S1x2048x1 := rfl

/-- Adding a tile's total of squared gaps to the second accumulator is the first accumulator's update. -/
theorem pay1_eq (a : Vec F S1x1 .f32) (p q : FVec F S2048x1 .f32) :
    k0_pay1 a (shapeCast S1x2048x1 (mulf (subf p q) (subf p q)) Facts₀.shapeCasts_S2048x1_S1x2048x1) = k0_pay24 p q a := rfl

/-- Both zero blocks the first point stores are one block. -/
theorem pay4_eq : k0_pay4 (F := F) = k0_pay3 := rfl

/-- One point's update of the first accumulator: add the tile's squared gaps between the first feature block's scores
    against the first and the second embeddings. -/
def step1 (x0 : Vec F S2048x1 .i32) (x2 : Vec F S2048x256 .f32) (x4 x5 : Vec F S512x256 .f32) (a : Vec F S1x1 .f32) :
    FVec F S1x1 .f32 :=
  k0_pay24 (k0_pay16 (k0_pay11 x2 x4 x0)) (k0_pay16 (k0_pay11 x2 x5 x0)) a

/-- One point's update of the second accumulator: the second feature block, second embeddings against first. -/
def step2 (x1 : Vec F S2048x1 .i32) (x3 : Vec F S2048x256 .f32) (x4 x5 : Vec F S512x256 .f32) (a : Vec F S1x1 .f32) :
    FVec F S1x1 .f32 :=
  k0_pay24 (k0_pay16 (k0_pay11 x3 x5 x1)) (k0_pay16 (k0_pay11 x3 x4 x1)) a

end AnyInstance

/-! ## Read at an index, at the ideal values -/

open Cert.Loss

/-- The one-hot row of a tile's label column: at (r, k) the bit [b r = k] as a number. -/
theorem pay9_apply (b : Vec Ideal S2048x1 .i32) (r : Fin 2048) (k : Fin 512) :
    k0_pay9 (F := Ideal) b (ix2 r k) = hot (b (ix2 r (0 : Fin 1))) (BitVec.ofNat 32 k.val) := by
  have e1 : broadcastTo S2048x512 (shapeCast S2048x1 b Facts₀.shapeCasts_S2048x1_S2048x1) Facts₀.broadcasts_S2048x1_S2048x512 (ix2 r k)
      = b (ix2 r (0 : Fin 1)) := by
    rw [shapeCast_self]; exact broadcastTo_a1_ab_apply b _ r k
  have e2 : iota .tc S2048x512 32 [1] Facts₀.iota_S2048x512_d1_w32 (ix2 r k) = BitVec.ofNat 32 k.val :=
    iota_single_apply .tc S2048x512 32 1 _ (ix2 r k)
  refine Eq.trans ?_ (hot_signed _ _)
  show ((((IntOp.cmpi .eq (broadcastTo S2048x512 (shapeCast S2048x1 b _) _ (ix2 r k))
      (iota .tc S2048x512 32 [1] _ (ix2 r k))).setWidth 32).toInt : ℝ) : EReal) = _
  rw [e1, e2]

/-- The printed dimension numbers are those of a plain 2048×256 by 256×512 product. -/
theorem dot_plain : dot_S2048x256_S256x512_S2048x512_1_0_0_1_n_n = DotDims.plain 2048 256 512 := rfl

/-- The masked similarity of node r of the tile to graph k. -/
theorem pay11_apply (z : Vec Ideal S2048x256 .f32) (g : Vec Ideal S512x256 .f32) (b : Vec Ideal S2048x1 .i32)
    (r : Fin 2048) (k : Fin 512) :
    k0_pay11 (F := Ideal) z g b (ix2 r k)
      = (∑ d : Fin 256, z (ix2 r d) * g (ix2 k d)) * hot (b (ix2 r (0 : Fin 1))) (BitVec.ofNat 32 k.val) := by
  have e : matmul dot_S2048x256_S256x512_S2048x512_1_0_0_1_n_n none (k0_pay5 (F := Ideal) z)
        (transpose S256x512 [1, 0] (k0_pay8 (F := Ideal) g) Facts₀.transposes_S512x256_p1_0_S256x512)
        (constant S2048x512 .f32 0x00000000#32) (ix2 r k)
      = ∑ d : Fin 256, z (ix2 r d) * g (ix2 k d) := by
    refine (PlainDot.matmul_zero_apply _ dot_plain none _ _ r k).trans ?_
    refine Finset.sum_congr rfl fun d _ => ?_
    refine congrArg (z (ix2 r d) * ·) ?_
    exact transpose_apply [1, 0] _ _ (ix2 d k) (ix2 k d) (fun a => match a with | ⟨0, _⟩ => rfl | ⟨1, _⟩ => rfl)
  show matmul dot_S2048x256_S256x512_S2048x512_1_0_0_1_n_n none (k0_pay5 (F := Ideal) z)
        (transpose S256x512 [1, 0] (k0_pay8 (F := Ideal) g) _) (constant S2048x512 .f32 0x00000000#32) (ix2 r k)
      * k0_pay9 (F := Ideal) b (ix2 r k) = _
  rw [e, pay9_apply]

/-- The row score of a block of similarities: at row r, the sum over graphs of jsd. -/
theorem pay16_apply (s : FVec Ideal S2048x512 .f32) (r : Fin 2048) (u : Fin 1) :
    k0_pay16 (F := Ideal) s (ix2 r u) = ∑ k : Fin 512, jsd (s (ix2 r k)) := by
  unfold k0_pay16
  refine (RowReduce.shapeCast_a_a1_apply _ _ r u).trans ?_
  refine (RowReduce.multiReduction_add_row _ _ _ _ _ r).trans ?_
  exact Finset.sum_congr rfl fun k _ => spA_neg (s (ix2 r k))

/-- So the row score of a tile's node against a set of embeddings is the specification's score. -/
theorem score_apply (z : Vec Ideal S2048x256 .f32) (g : Vec Ideal S512x256 .f32) (b : Vec Ideal S2048x1 .i32)
    (r : Fin 2048) (u : Fin 1) :
    k0_pay16 (F := Ideal) (k0_pay11 (F := Ideal) z g b) (ix2 r u)
      = score (fun d => z (ix2 r d)) (fun k d => g (ix2 k d)) (b (ix2 r (0 : Fin 1))) := by
  rw [pay16_apply]
  exact Finset.sum_congr rfl fun k _ => congrArg jsd (pay11_apply z g b r k)

/-- A column of 2048 values, viewed as a [1, 2048, 1] block, summed over its two long axes, and the one element taken:
    the sum of the column. -/
theorem total_apply (w : FVec Ideal S2048x1 .f32) :
    extractAt ![0, 0, 0]
        (shapeCast S1x1x1
          (multiReduction .add [1, 2] S1 (shapeCast S1x2048x1 w Facts₀.shapeCasts_S2048x1_S1x2048x1) 0x00000000#32
            Facts₀.reduces_S1x2048x1_S1 (.inl rfl) rfl)
          Facts₀.shapeCasts_S1_S1x1x1)
        Facts₀.inpos_S1x1x1_p0_0_0
      = ∑ r : Fin 2048, w (ix2 r (0 : Fin 1)) := by
  unfold extractAt
  refine (shapeCast_apply _ _ _ (ix1 (0 : Fin 1)) (by rw [Shape.rowMajor_val_one, Shape.rowMajor_val_three]; rfl)).trans ?_
  refine (Ideal.multiReduction_add_total _ _ _ (fun a => match a with | ⟨0, _⟩ => rfl) _ _ _).trans ?_
  rw [Idx3.sum_idx3]
  simp only [Fin.sum_univ_one]
  refine Finset.sum_congr rfl fun r _ => ?_
  refine (shapeCast_addUnit_apply ![2048, 1] w _ _).trans ?_
  exact congrArg w (funext fun a => match a with | ⟨0, _⟩ => rfl | ⟨1, _⟩ => rfl)

/-- The accumulator's update: what it held plus the tile's total of squared gaps. -/
theorem pay24_apply (p q : FVec Ideal S2048x1 .f32) (a : Vec Ideal S1x1 .f32) :
    k0_pay24 (F := Ideal) p q a (ix2 (0 : Fin 1) (0 : Fin 1))
      = a (ix2 (0 : Fin 1) (0 : Fin 1))
        + ∑ r : Fin 2048, (p (ix2 r (0 : Fin 1)) - q (ix2 r (0 : Fin 1))) * (p (ix2 r (0 : Fin 1)) - q (ix2 r (0 : Fin 1))) := by
  unfold k0_pay24
  refine (congrFun (shapeCast_self _ _) _).trans ?_
  exact congrArg (a (ix2 (0 : Fin 1) (0 : Fin 1)) + ·) (total_apply (mulf (subf p q) (subf p q)))

/-- The output: the two accumulators' square roots, added. -/
theorem pay2_apply (a b : Vec Ideal S1x1 .f32) :
    k0_pay2 (F := Ideal) a b (ix2 (0 : Fin 1) (0 : Fin 1))
      = Ideal.sqrt (a (ix2 (0 : Fin 1) (0 : Fin 1))) + Ideal.sqrt (b (ix2 (0 : Fin 1) (0 : Fin 1))) := rfl

/-- The block the first point stores into an accumulator is zero. -/
theorem pay3_apply : k0_pay3 (F := Ideal) (ix2 (0 : Fin 1) (0 : Fin 1)) = 0 := by
  unfold k0_pay3
  refine (congrFun (shapeCast_self _ _) _).trans ?_
  exact Ideal.ofBits_zero_f32

/-- The first accumulator's step at the ideal values: what it held plus the tile's squared score gaps of the first
    feature block (first embeddings against second). -/
theorem step1_apply (x0 : Vec Ideal S2048x1 .i32) (x2 : Vec Ideal S2048x256 .f32) (x4 x5 : Vec Ideal S512x256 .f32)
    (a : Vec Ideal S1x1 .f32) :
    step1 (F := Ideal) x0 x2 x4 x5 a (ix2 (0 : Fin 1) (0 : Fin 1))
      = a (ix2 (0 : Fin 1) (0 : Fin 1))
        + ∑ r : Fin 2048, gapSq (fun d => x2 (ix2 r d)) (fun k d => x4 (ix2 k d)) (fun k d => x5 (ix2 k d)) (x0 (ix2 r (0 : Fin 1))) := by
  unfold step1
  rw [pay24_apply]
  refine congrArg _ (Finset.sum_congr rfl fun r _ => ?_)
  rw [score_apply, score_apply]
  rfl

/-- The second accumulator's step: the second feature block, second embeddings against first. -/
theorem step2_apply (x1 : Vec Ideal S2048x1 .i32) (x3 : Vec Ideal S2048x256 .f32) (x4 x5 : Vec Ideal S512x256 .f32)
    (a : Vec Ideal S1x1 .f32) :
    step2 (F := Ideal) x1 x3 x4 x5 a (ix2 (0 : Fin 1) (0 : Fin 1))
      = a (ix2 (0 : Fin 1) (0 : Fin 1))
        + ∑ r : Fin 2048, gapSq (fun d => x3 (ix2 r d)) (fun k d => x5 (ix2 k d)) (fun k d => x4 (ix2 k d)) (x1 (ix2 r (0 : Fin 1))) := by
  unfold step2
  rw [pay24_apply]
  refine congrArg _ (Finset.sum_congr rfl fun r _ => ?_)
  rw [score_apply, score_apply]
  rfl

end Cert.Tile

end
-- ==== Proof.Pieces.lean ====
/-
  What each case of the body leaves in the two accumulators and in the output's buffer, as values.

  At the first grid point the body zeroes both accumulators, adds the tile's totals to them and stores the sum of their
  square roots; at every later point it adds to what the point before left.  The run of each case is found piece by piece
  (one covering store per buffer, after an earlier zero store at the first point); read back, the pieces are the tile
  steps of the accumulators and the output formula of them.  This holds at any float instance.
-/
import proofs.«128601_j49959059587770_1_alg».proof.Proof.Gen.KernelIdeal.Frame
import proofs.«128601_j49959059587770_1_alg».proof.Proof.Tile
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.Pieces

open Cert.KernelIdeal Cert.KernelIdeal.Gen Cert.Tile

variable {F : FTy → Type} [FloatOps F]

theorem hz : (![0, 0] : Fin 2 → Nat) = fun _ => 0 := funext fun a => by fin_cases a <;> rfl

variable (c : Dev nD) (i : grid0.Coords)
  (arg1 : Memref sig .tc .vmem S2048x1 .i32) (harg1 : arg1.IsWhole) (arg2 : Memref sig .tc .vmem S2048x1 .i32) (harg2 : arg2.IsWhole)
  (arg3 : Memref sig .tc .vmem S2048x256 .f32) (harg3 : arg3.IsWhole) (arg4 : Memref sig .tc .vmem S2048x256 .f32) (harg4 : arg4.IsWhole)
  (arg5 : Memref sig .tc .vmem S512x256 .f32) (harg5 : arg5.IsWhole) (arg6 : Memref sig .tc .vmem S512x256 .f32) (harg6 : arg6.IsWhole)
  (arg7 : Memref sig .tc .vmem S1x1 .f32) (harg7 : arg7.IsWhole) (arg8 : Memref sig .tc .vmem S1x1 .f32) (harg8 : arg8.IsWhole)
  (arg9 : Memref sig .tc .vmem S1x1 .f32) (harg9 : arg9.IsWhole)
  (x0 x1 : Vec F S2048x1 .i32) (x2 x3 : Vec F S2048x256 .f32) (x4 x5 : Vec F S512x256 .f32)

/-! ## The first point -/

/-- The first accumulator after the first point: the tile's step from the zero block. -/
theorem first_acc1 (hc0 : cond0_0 i) :
    sout0_A_0 c i arg1 harg1 arg2 harg2 arg3 harg3 arg4 harg4 arg5 harg5 arg6 harg6 arg7 harg7 arg8 harg8 arg9 harg9 hc0 x0 x1 x2 x3 x4 x5 = step1 x0 x2 x4 x5 k0_pay3 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x1) hz, View.readCov_unit_zero (S := S1x1) _ hz]
  simp only [View.readAt_eq_ld, harg1.read_unread, harg3.read_unread, harg5.read_unread, harg6.read_unread,
    View.ld_unit_zero (S := S2048x1) hz, View.ld_unit_zero (S := S2048x256) hz, View.ld_unit_zero (S := S512x256) hz]
  rfl

/-- The second accumulator after the first point. -/
theorem first_acc2 (hc0 : cond0_0 i) :
    sout0_A_1 c i arg1 harg1 arg2 harg2 arg3 harg3 arg4 harg4 arg5 harg5 arg6 harg6 arg7 harg7 arg8 harg8 arg9 harg9 hc0 x0 x1 x2 x3 x4 x5 = step2 x1 x3 x4 x5 k0_pay3 := by
  unfold sout0_A_1
  rw [View.read_writes_eq_canon _ _ _ (scover0_A_1 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x1) hz, View.readCov_unit_zero (S := S1x1) _ hz]
  simp only [View.readAt_eq_ld, harg2.read_unread, harg4.read_unread, harg5.read_unread, harg6.read_unread,
    View.ld_unit_zero (S := S2048x1) hz, View.ld_unit_zero (S := S2048x256) hz, View.ld_unit_zero (S := S512x256) hz]
  rfl

/-- The output's buffer after the first point: the sum of the two accumulators' square roots. -/
theorem first_out (hc0 : cond0_0 i) :
    out0_A_6 c i arg1 harg1 arg2 harg2 arg3 harg3 arg4 harg4 arg5 harg5 arg6 harg6 arg7 harg7 arg8 harg8 arg9 harg9 hc0 x0 x1 x2 x3 x4 x5
      = k0_pay2 (step1 x0 x2 x4 x5 k0_pay3) (step2 x1 x3 x4 x5 k0_pay3) := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz]
  simp only [View.readCov_cons_toLoadRect, View.readCov_unit_zero (S := S1x1) _ hz,
    View.readAt_eq_ld, harg1.read_unread, harg2.read_unread, harg3.read_unread, harg4.read_unread, harg5.read_unread, harg6.read_unread,
    View.ld_unit_zero (S := S2048x1) hz, View.ld_unit_zero (S := S2048x256) hz, View.ld_unit_zero (S := S512x256) hz]
  rfl

/-! ## Every later point, over what the point before left in the accumulators -/

variable (xs0 xs1 : Vec F S1x1 .f32)

theorem later_acc1 (hc0 : ¬cond0_0 i) :
    sout0_B_0 c i arg1 harg1 arg2 harg2 arg3 harg3 arg4 harg4 arg5 harg5 arg6 harg6 arg7 harg7 arg8 harg8 arg9 harg9 hc0 x0 x1 x2 x3 x4 x5 xs0 xs1 = step1 x0 x2 x4 x5 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 x0 x1 x2 x3 x4 x5 xs0 xs1)]
  unfold kernelRun0_B
  dsimp only
  sl_unfold_words
  rw [View.canon_unit_zero hz]
  simp only [View.readAt_eq_ld, harg1.read_unread, harg3.read_unread, harg5.read_unread, harg6.read_unread, harg8.read_unread,
    View.ld_unit_zero (S := S2048x1) hz, View.ld_unit_zero (S := S2048x256) hz, View.ld_unit_zero (S := S512x256) hz,
    View.ld_unit_zero (S := S1x1) hz]
  rfl

theorem later_acc2 (hc0 : ¬cond0_0 i) :
    sout0_B_1 c i arg1 harg1 arg2 harg2 arg3 harg3 arg4 harg4 arg5 harg5 arg6 harg6 arg7 harg7 arg8 harg8 arg9 harg9 hc0 x0 x1 x2 x3 x4 x5 xs0 xs1 = step2 x1 x3 x4 x5 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 hc0 x0 x1 x2 x3 x4 x5 xs0 xs1)]
  unfold kernelRun0_B
  dsimp only
  sl_unfold_words
  rw [View.canon_unit_zero hz]
  simp only [View.readAt_eq_ld, harg2.read_unread, harg4.read_unread, harg5.read_unread, harg6.read_unread, harg9.read_unread,
    View.ld_unit_zero (S := S2048x1) hz, View.ld_unit_zero (S := S2048x256) hz, View.ld_unit_zero (S := S512x256) hz,
    View.ld_unit_zero (S := S1x1) hz]
  rfl

theorem later_out (hc0 : ¬cond0_0 i) :
    out0_B_6 c i arg1 harg1 arg2 harg2 arg3 harg3 arg4 harg4 arg5 harg5 arg6 harg6 arg7 harg7 arg8 harg8 arg9 harg9 hc0 x0 x1 x2 x3 x4 x5 xs0 xs1
      = k0_pay2 (step1 x0 x2 x4 x5 xs0) (step2 x1 x3 x4 x5 xs1) := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xs0 xs1)]
  unfold kernelRun0_B
  dsimp only
  sl_unfold_words
  rw [View.canon_unit_zero hz]
  simp only [View.readCov_cons_toLoadRect, View.readCov_unit_zero (S := S1x1) _ hz,
    View.readAt_eq_ld, harg1.read_unread, harg2.read_unread, harg3.read_unread, harg4.read_unread, harg5.read_unread, harg6.read_unread,
    harg8.read_unread, harg9.read_unread,
    View.ld_unit_zero (S := S2048x1) hz, View.ld_unit_zero (S := S2048x256) hz, View.ld_unit_zero (S := S512x256) hz,
    View.ld_unit_zero (S := S1x1) hz]
  rfl

end Cert.Pieces

end
-- ==== Proof.LibRunningSum.lean ====
/-
  A running sum over the steps of a grid.

  An accumulator that is zeroed and given `T 0` at the first step, and given `T (n + 1)` more at every later step,
  holds after step `n` the sum of `T 0 … T n`; after the last of `N + 1` steps it holds the sum over `Fin (N + 1)`.
  Stated over any additive commutative monoid: nothing but associativity and `0 + x = x` is used, so it holds on
  the extended reals with their infinities.
-/
import Mathlib.Algebra.BigOperators.Fin

noncomputable section

namespace Idealize.ShloMosaic.RunningSum

variable {M : Type*} [AddCommMonoid M]

/-- The running sum after step `n`: `0 + T 0` first, then `+ T (n + 1)`. -/
def running (T : ℕ → M) : ℕ → M
  | 0 => 0 + T 0
  | n + 1 => running T n + T (n + 1)

/-- The running sum after step `n` is the sum of the first `n + 1` terms. -/
theorem running_eq_sum (T : ℕ → M) (n : ℕ) : running T n = ∑ t ∈ Finset.range (n + 1), T t := by
  induction n with
  | zero => simp [running]
  | succ n ih => rw [running, ih, Finset.sum_range_succ _ (n + 1)]

/-- After the last of `N + 1` steps it is the sum over `Fin (N + 1)`. -/
theorem running_last (T : ℕ → M) (N : ℕ) : running T N = ∑ b : Fin (N + 1), T b.val := by
  rw [running_eq_sum, Finset.sum_range]

end Idealize.ShloMosaic.RunningSum

end
-- ==== Proof.Accum.lean ====
/-
  The accumulators point by point.

  After the first grid point each accumulator holds its tile step from the zero block; after every later point, its tile
  step from what the point before left; the output's buffer holds, after every point, the sum of the two accumulators'
  square roots.  So what the buffers hold after point n is a function of the tiles 0 … n alone (by induction on the point,
  over the two cases' values); at the ideal values each accumulator's one element is the running sum of the tiles'
  totals of squared score gaps.
-/
import proofs.«128601_j49959059587770_1_alg».proof.Proof.Pieces
import proofs.«128601_j49959059587770_1_alg».proof.Proof.LibRunningSum

noncomputable section

open Idealize.ShloMosaic Idealize.ShloMosaic.TcCoe Idealize.SL.Sem Idealize.ShloMosaic.ValueIdx

namespace Cert.Accum

open Cert.KernelIdeal Cert.KernelIdeal.Gen Cert.Tile Cert.Pieces

section AnyInstance
variable {F : FTy → Type} [FloatOps F]
variable (m : (ℓ : Loc nD τ sig) → Buf (Elt F) ℓ)

/-- The two accumulators after point n: the tile steps of points 0 … n in order, from the zero block. -/
def accs (c : Dev nD) : (n : ℕ) → n < cfg0.N → Vec F S1x1 .f32 × Vec F S1x1 .f32
  | 0, h => ((step1 (iblk m c 0 ⟨0, h⟩) (iblk m c 2 ⟨0, h⟩) (iblk m c 4 ⟨0, h⟩) (iblk m c 5 ⟨0, h⟩) k0_pay3), (step2 (iblk m c 1 ⟨0, h⟩) (iblk m c 3 ⟨0, h⟩) (iblk m c 4 ⟨0, h⟩) (iblk m c 5 ⟨0, h⟩) k0_pay3))
  | n + 1, h => ((step1 (iblk m c 0 ⟨n + 1, h⟩) (iblk m c 2 ⟨n + 1, h⟩) (iblk m c 4 ⟨n + 1, h⟩) (iblk m c 5 ⟨n + 1, h⟩) (accs c n (Nat.lt_of_succ_lt h)).1), (step2 (iblk m c 1 ⟨n + 1, h⟩) (iblk m c 3 ⟨n + 1, h⟩) (iblk m c 4 ⟨n + 1, h⟩) (iblk m c 5 ⟨n + 1, h⟩) (accs c n (Nat.lt_of_succ_lt h)).2))

/-- What the output's buffer and the two accumulators hold after point n. -/
theorem outsAt_eq (c : Dev nD) : ∀ (n : ℕ) (h : n < cfg0.N),
    outsAt0 m c n h = (k0_pay2 (accs m c n h).1 (accs m c n h).2, (accs m c n h).1, (accs m c n h).2)
  | 0, h => by
    refine (outsAt0_A m c ⟨0, h⟩ rfl).trans ?_
    exact congrArg₂ Prod.mk (first_out c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) _)
      (congrArg₂ Prod.mk (first_acc1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) _) (first_acc2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) _))
  | n + 1, h => by
    have hN : cfg0.N = 32 := N_0
    have hB : ¬(⟨n + 1, h⟩ : Fin cfg0.N).val % 32 = 0 := by dsimp only; omega
    have ih := outsAt_eq c n (Nat.lt_of_succ_lt h)
    have p1 : (outsAt0 m c n (Nat.lt_of_succ_lt h)).2.1 = (accs m c n (Nat.lt_of_succ_lt h)).1 := congrArg (fun p => p.2.1) ih
    have p2 : (outsAt0 m c n (Nat.lt_of_succ_lt h)).2.2 = (accs m c n (Nat.lt_of_succ_lt h)).2 := congrArg (fun p => p.2.2) ih
    refine (outsAt0_B m c ⟨n + 1, h⟩ hB).trans ?_
    refine congrArg₂ Prod.mk
      ((later_out c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).2.1 (outsAt0 m c n (Nat.lt_of_succ_lt h)).2.2 _).trans ?_)
      (congrArg₂ Prod.mk
        ((later_acc1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).2.1 (outsAt0 m c n (Nat.lt_of_succ_lt h)).2.2 _).trans ?_)
        ((later_acc2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).2.1 (outsAt0 m c n (Nat.lt_of_succ_lt h)).2.2 _).trans ?_))
    · exact congrArg₂ k0_pay2 (congrArg (step1 (iblk m c 0 ⟨n + 1, h⟩) (iblk m c 2 ⟨n + 1, h⟩) (iblk m c 4 ⟨n + 1, h⟩) (iblk m c 5 ⟨n + 1, h⟩)) p1)
        (congrArg (step2 (iblk m c 1 ⟨n + 1, h⟩) (iblk m c 3 ⟨n + 1, h⟩) (iblk m c 4 ⟨n + 1, h⟩) (iblk m c 5 ⟨n + 1, h⟩)) p2)
    · exact congrArg (step1 (iblk m c 0 ⟨n + 1, h⟩) (iblk m c 2 ⟨n + 1, h⟩) (iblk m c 4 ⟨n + 1, h⟩) (iblk m c 5 ⟨n + 1, h⟩)) p1
    · exact congrArg (step2 (iblk m c 1 ⟨n + 1, h⟩) (iblk m c 3 ⟨n + 1, h⟩) (iblk m c 4 ⟨n + 1, h⟩) (iblk m c 5 ⟨n + 1, h⟩)) p2

end AnyInstance

/-! ## At the ideal values: running sums of the tiles' totals -/

section AtIdeal
open Cert.Loss Idealize.ShloMosaic.RunningSum
variable (m : (ℓ : Loc nD τ sig) → Buf (Elt Ideal) ℓ)

/-- Tile t's total of squared score gaps of the first feature block (first embeddings against second). -/
def tile1 (c : Dev nD) (t : Fin cfg0.N) : EReal :=
  ∑ r : Fin 2048, gapSq (fun d => (iblk m c 2 t : Vec Ideal S2048x256 .f32) (ix2 r d))
    (fun k d => (iblk m c 4 t : Vec Ideal S512x256 .f32) (ix2 k d)) (fun k d => (iblk m c 5 t : Vec Ideal S512x256 .f32) (ix2 k d))
    ((iblk m c 0 t : Vec Ideal S2048x1 .i32) (ix2 r (0 : Fin 1)))

/-- Tile t's total for the second feature block (second embeddings against first). -/
def tile2 (c : Dev nD) (t : Fin cfg0.N) : EReal :=
  ∑ r : Fin 2048, gapSq (fun d => (iblk m c 3 t : Vec Ideal S2048x256 .f32) (ix2 r d))
    (fun k d => (iblk m c 5 t : Vec Ideal S512x256 .f32) (ix2 k d)) (fun k d => (iblk m c 4 t : Vec Ideal S512x256 .f32) (ix2 k d))
    ((iblk m c 1 t : Vec Ideal S2048x1 .i32) (ix2 r (0 : Fin 1)))

/-- The totals as sequences over all naturals (zero past the grid), the form a running sum is stated over. -/
def T1 (c : Dev nD) (n : ℕ) : EReal := if h : n < cfg0.N then tile1 m c ⟨n, h⟩ else 0
def T2 (c : Dev nD) (n : ℕ) : EReal := if h : n < cfg0.N then tile2 m c ⟨n, h⟩ else 0

theorem acc1_running (c : Dev nD) : ∀ (n : ℕ) (h : n < cfg0.N),
    (accs m c n h).1 (ix2 (0 : Fin 1) (0 : Fin 1)) = running (T1 m c) n
  | 0, h => by
    refine (step1_apply (iblk m c 0 ⟨0, h⟩) (iblk m c 2 ⟨0, h⟩) (iblk m c 4 ⟨0, h⟩) (iblk m c 5 ⟨0, h⟩) (k0_pay3 (F := Ideal))).trans ?_
    rw [pay3_apply]
    show 0 + tile1 m c ⟨0, h⟩ = 0 + T1 m c 0
    unfold T1; rw [dif_pos h]
  | n + 1, h => by
    refine (step1_apply (iblk m c 0 ⟨n + 1, h⟩) (iblk m c 2 ⟨n + 1, h⟩) (iblk m c 4 ⟨n + 1, h⟩) (iblk m c 5 ⟨n + 1, h⟩) (accs m c n (Nat.lt_of_succ_lt h)).1).trans ?_
    rw [acc1_running c n (Nat.lt_of_succ_lt h)]
    show running (T1 m c) n + tile1 m c ⟨n + 1, h⟩ = running (T1 m c) n + T1 m c (n + 1)
    unfold T1; rw [dif_pos h]

theorem acc2_running (c : Dev nD) : ∀ (n : ℕ) (h : n < cfg0.N),
    (accs m c n h).2 (ix2 (0 : Fin 1) (0 : Fin 1)) = running (T2 m c) n
  | 0, h => by
    refine (step2_apply (iblk m c 1 ⟨0, h⟩) (iblk m c 3 ⟨0, h⟩) (iblk m c 4 ⟨0, h⟩) (iblk m c 5 ⟨0, h⟩) (k0_pay3 (F := Ideal))).trans ?_
    rw [pay3_apply]
    show 0 + tile2 m c ⟨0, h⟩ = 0 + T2 m c 0
    unfold T2; rw [dif_pos h]
  | n + 1, h => by
    refine (step2_apply (iblk m c 1 ⟨n + 1, h⟩) (iblk m c 3 ⟨n + 1, h⟩) (iblk m c 4 ⟨n + 1, h⟩) (iblk m c 5 ⟨n + 1, h⟩) (accs m c n (Nat.lt_of_succ_lt h)).2).trans ?_
    rw [acc2_running c n (Nat.lt_of_succ_lt h)]
    show running (T2 m c) n + tile2 m c ⟨n + 1, h⟩ = running (T2 m c) n + T2 m c (n + 1)
    unfold T2; rw [dif_pos h]

end AtIdeal

end Cert.Accum

end
-- ==== Proof.Rows.lean ====
/-
  Numbering the nodes by tile.

  The 65536 nodes are taken in 32 tiles of 2048: node r of tile t is node 2048·t + r.  A sum over all nodes is the sum
  over the tiles of the sums inside each tile — a re-indexing of a finite sum, valid in any additive commutative monoid
  (so on the extended reals with no finiteness).
-/
import proofs.«128601_j49959059587770_1_alg».proof.Proof.Loss

noncomputable section

namespace Cert.Rows

open Cert.Loss

/-- Node r of tile t. -/
def row (t : Fin 32) (r : Fin 2048) : Fin 65536 :=
  ⟨2048 * t.val + r.val, by have := t.isLt; have := r.isLt; omega⟩

theorem row_val (t : Fin 32) (r : Fin 2048) : (row t r).val = 2048 * t.val + r.val := rfl

/-- A sum over all nodes, tile by tile. -/
theorem sum_rows {M : Type*} [AddCommMonoid M] (f : Fin 65536 → M) :
    ∑ n : Fin 65536, f n = ∑ t : Fin 32, ∑ r : Fin 2048, f (row t r) := by
  have h := sum_tiles (T := 32) (R := 2048) (fun n : Fin (32 * 2048) => f ⟨n.val, n.isLt⟩)
  refine Eq.trans ?_ (h.trans ?_)
  · rfl
  · refine Finset.sum_congr rfl fun t _ => Finset.sum_congr rfl fun r _ => congrArg f (Fin.ext ?_)
    show r.val + 2048 * t.val = 2048 * t.val + r.val
    omega

end Cert.Rows

end
-- ==== Proof.KernelValue.lean ====
/-
  The kernel's result.

  The windows' blocks are rows 2048·t … 2048·t + 2047 of the feature arrays and of the label columns, and the whole
  embedding arrays; so a tile's total of squared score gaps is the specification's sum over the tile's nodes, and after
  the last point each accumulator holds the sum over all nodes.  The output's one block is written back once, after the
  last point, with the sum of the accumulators' square roots; the host then reads that one element as a scalar.
-/
import proofs.«128601_j49959059587770_1_alg».proof.Proof.Accum
import proofs.«128601_j49959059587770_1_alg».proof.Proof.Rows
import proofs.«128601_j49959059587770_1_alg».proof.Proof.LibRowReduce
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelValue

open Cert.KernelIdeal Cert.KernelIdeal.Gen Cert.Tile Cert.Accum Cert.Loss Cert.Rows Idealize.ShloMosaic.RunningSum

variable (m : (ℓ : Loc nD τ sig) → Buf (Elt Ideal) ℓ) (ρ : Dev nD → PrngReg)

/-! ## The printed index maps, decided over the grid -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The point as a tile number. -/
def tileOf (t : Fin cfg0.N) : Fin 32 := ⟨t.val, lt_of_lt_of_eq t.isLt (show cfg0.N = 32 from N_0)⟩

/-! ## The label columns the region finds are the label arrays -/

theorem V_v0 (c : Dev nD) (n : Fin 65536) :
    (V m c main_v0 : S65536x1.Idx → BitVec 32) (ix2 n (0 : Fin 1)) = m ((c : Thread nD τ).loc main_arg0) (ix1 n) := by
  have e : (V m c main_v0 : S65536x1.Idx → BitVec 32)
      = shapeCast S65536x1 (m ((c : Thread nD τ).loc main_arg0)) Facts₀.shapeCasts_S65536_S65536x1 := by
    show StableHlo.after hostOps0 (fun b => m (c, b)) (Proc.devRef .tc main_v0) = _
    after_results
    rfl
  rw [e]
  exact RowReduce.shapeCast_a_a1_apply _ _ n 0

theorem V_v1 (c : Dev nD) (n : Fin 65536) :
    (V m c main_v1 : S65536x1.Idx → BitVec 32) (ix2 n (0 : Fin 1)) = m ((c : Thread nD τ).loc main_arg1) (ix1 n) := by
  have e : (V m c main_v1 : S65536x1.Idx → BitVec 32)
      = shapeCast S65536x1 (m ((c : Thread nD τ).loc main_arg1)) Facts₀.shapeCasts_S65536_S65536x1 := by
    show StableHlo.after hostOps0 (fun b => m (c, b)) (Proc.devRef .tc main_v1) = _
    after_results
    rfl
  rw [e]
  exact RowReduce.shapeCast_a_a1_apply _ _ n 0

/-! ## The windows' blocks read at an index -/

theorem blk0 (c : Dev nD) (t : Fin cfg0.N) (r : Fin 2048) :
    (iblk m c 0 t : Vec Ideal S2048x1 .i32) (ix2 r (0 : Fin 1)) = m ((c : Thread nD τ).loc main_arg0) (ix1 (row (tileOf t) r)) := by
  obtain ⟨e0, e1, -⟩ := idx_facts t
  refine Eq.trans ?_ (V_v0 m c (row (tileOf t) r))
  show V m c main_v0 (((cfg0.win 0).blk t).view.emb (ix2 r (0 : Fin 1))) = V m c main_v0 (ix2 (row (tileOf t) r) (0 : Fin 1))
  refine congrArg (V m c main_v0) (funext fun a => Fin.ext ?_)
  match a with
  | ⟨0, _⟩ => show win0_0.index t (0 : Fin 2) * 2048 + 1 * r.val = 2048 * t.val + r.val; omega
  | ⟨1, _⟩ => show win0_0.index t (1 : Fin 2) * 1 + 1 * 0 = 0; omega

theorem blk1 (c : Dev nD) (t : Fin cfg0.N) (r : Fin 2048) :
    (iblk m c 1 t : Vec Ideal S2048x1 .i32) (ix2 r (0 : Fin 1)) = m ((c : Thread nD τ).loc main_arg1) (ix1 (row (tileOf t) r)) := by
  obtain ⟨-, -, e0, e1, -⟩ := idx_facts t
  refine Eq.trans ?_ (V_v1 m c (row (tileOf t) r))
  show V m c main_v1 (((cfg0.win 1).blk t).view.emb (ix2 r (0 : Fin 1))) = V m c main_v1 (ix2 (row (tileOf t) r) (0 : Fin 1))
  refine congrArg (V m c main_v1) (funext fun a => Fin.ext ?_)
  match a with
  | ⟨0, _⟩ => show win0_1.index t (0 : Fin 2) * 2048 + 1 * r.val = 2048 * t.val + r.val; omega
  | ⟨1, _⟩ => show win0_1.index t (1 : Fin 2) * 1 + 1 * 0 = 0; omega

theorem blk2 (c : Dev nD) (t : Fin cfg0.N) (r : Fin 2048) (d : Fin 256) :
    (iblk m c 2 t : Vec Ideal S2048x256 .f32) (ix2 r d) = m ((c : Thread nD τ).loc main_arg2) (ix2 (row (tileOf t) r) d) := by
  obtain ⟨-, -, -, -, e0, e1, -⟩ := idx_facts t
  rw [← V_main_arg2 m c]
  show V m c main_arg2 (((cfg0.win 2).blk t).view.emb (ix2 r d)) = V m c main_arg2 (ix2 (row (tileOf t) r) d)
  refine congrArg (V m c main_arg2) (funext fun a => Fin.ext ?_)
  match a with
  | ⟨0, _⟩ => show win0_2.index t (0 : Fin 2) * 2048 + 1 * r.val = 2048 * t.val + r.val; omega
  | ⟨1, _⟩ => show win0_2.index t (1 : Fin 2) * 256 + 1 * d.val = d.val; omega

theorem blk3 (c : Dev nD) (t : Fin cfg0.N) (r : Fin 2048) (d : Fin 256) :
    (iblk m c 3 t : Vec Ideal S2048x256 .f32) (ix2 r d) = m ((c : Thread nD τ).loc main_arg3) (ix2 (row (tileOf t) r) d) := by
  obtain ⟨-, -, -, -, -, -, e0, e1, -⟩ := idx_facts t
  rw [← V_main_arg3 m c]
  show V m c main_arg3 (((cfg0.win 3).blk t).view.emb (ix2 r d)) = V m c main_arg3 (ix2 (row (tileOf t) r) d)
  refine congrArg (V m c main_arg3) (funext fun a => Fin.ext ?_)
  match a with
  | ⟨0, _⟩ => show win0_3.index t (0 : Fin 2) * 2048 + 1 * r.val = 2048 * t.val + r.val; omega
  | ⟨1, _⟩ => show win0_3.index t (1 : Fin 2) * 256 + 1 * d.val = d.val; omega

theorem blk4 (c : Dev nD) (t : Fin cfg0.N) (k : Fin 512) (d : Fin 256) :
    (iblk m c 4 t : Vec Ideal S512x256 .f32) (ix2 k d) = m ((c : Thread nD τ).loc main_arg4) (ix2 k d) := by
  obtain ⟨-, -, -, -, -, -, -, -, e0, e1, -⟩ := idx_facts t
  rw [← V_main_arg4 m c]
  show V m c main_arg4 (((cfg0.win 4).blk t).view.emb (ix2 k d)) = V m c main_arg4 (ix2 k d)
  refine congrArg (V m c main_arg4) (funext fun a => Fin.ext ?_)
  match a with
  | ⟨0, _⟩ => show win0_4.index t (0 : Fin 2) * 512 + 1 * k.val = k.val; omega
  | ⟨1, _⟩ => show win0_4.index t (1 : Fin 2) * 256 + 1 * d.val = d.val; omega

theorem blk5 (c : Dev nD) (t : Fin cfg0.N) (k : Fin 512) (d : Fin 256) :
    (iblk m c 5 t : Vec Ideal S512x256 .f32) (ix2 k d) = m ((c : Thread nD τ).loc main_arg5) (ix2 k d) := by
  obtain ⟨-, -, -, -, -, -, -, -, -, -, e0, e1, -⟩ := idx_facts t
  rw [← V_main_arg5 m c]
  show V m c main_arg5 (((cfg0.win 5).blk t).view.emb (ix2 k d)) = V m c main_arg5 (ix2 k d)
  refine congrArg (V m c main_arg5) (funext fun a => Fin.ext ?_)
  match a with
  | ⟨0, _⟩ => show win0_5.index t (0 : Fin 2) * 512 + 1 * k.val = k.val; omega
  | ⟨1, _⟩ => show win0_5.index t (1 : Fin 2) * 256 + 1 * d.val = d.val; omega

/-! ## The tiles' totals in the argument arrays -/

/-- The argument arrays, curried. -/
abbrev Z1 (c : Dev nD) (n : Fin 65536) (d : Fin 256) : EReal := m ((c : Thread nD τ).loc main_arg2) (ix2 n d)
abbrev Z2 (c : Dev nD) (n : Fin 65536) (d : Fin 256) : EReal := m ((c : Thread nD τ).loc main_arg3) (ix2 n d)
abbrev G1 (c : Dev nD) (k : Fin 512) (d : Fin 256) : EReal := m ((c : Thread nD τ).loc main_arg4) (ix2 k d)
abbrev G2 (c : Dev nD) (k : Fin 512) (d : Fin 256) : EReal := m ((c : Thread nD τ).loc main_arg5) (ix2 k d)
abbrev B1 (c : Dev nD) (n : Fin 65536) : BitVec 32 := m ((c : Thread nD τ).loc main_arg0) (ix1 n)
abbrev B2 (c : Dev nD) (n : Fin 65536) : BitVec 32 := m ((c : Thread nD τ).loc main_arg1) (ix1 n)

theorem tile1_eq (c : Dev nD) (t : Fin cfg0.N) :
    tile1 m c t = ∑ r : Fin 2048, gapSq (Z1 m c (row (tileOf t) r)) (G1 m c) (G2 m c) (B1 m c (row (tileOf t) r)) := by
  unfold tile1
  refine Finset.sum_congr rfl fun r _ => ?_
  rw [blk0 m c t r]
  refine congrArg (fun z => gapSq z _ _ _) (funext fun d => blk2 m c t r d) |>.trans ?_
  refine congrArg (fun g => gapSq _ g _ _) (funext fun k => funext fun d => blk4 m c t k d) |>.trans ?_
  exact congrArg (fun g => gapSq _ _ g _) (funext fun k => funext fun d => blk5 m c t k d)

theorem tile2_eq (c : Dev nD) (t : Fin cfg0.N) :
    tile2 m c t = ∑ r : Fin 2048, gapSq (Z2 m c (row (tileOf t) r)) (G2 m c) (G1 m c) (B2 m c (row (tileOf t) r)) := by
  unfold tile2
  refine Finset.sum_congr rfl fun r _ => ?_
  rw [blk1 m c t r]
  refine congrArg (fun z => gapSq z _ _ _) (funext fun d => blk3 m c t r d) |>.trans ?_
  refine congrArg (fun g => gapSq _ g _ _) (funext fun k => funext fun d => blk5 m c t k d) |>.trans ?_
  exact congrArg (fun g => gapSq _ _ g _) (funext fun k => funext fun d => blk4 m c t k d)

/-! ## After the last point -/

def tLast : Fin cfg0.N := ⟨31, by rw [show cfg0.N = 32 from N_0]; decide⟩

/-- After the last point the first accumulator holds the sum over all nodes. -/
theorem acc1_last (c : Dev nD) :
    (accs m c 31 tLast.isLt).1 (ix2 (0 : Fin 1) (0 : Fin 1)) = ∑ n : Fin 65536, gapSq (Z1 m c n) (G1 m c) (G2 m c) (B1 m c n) := by
  rw [acc1_running m c 31 tLast.isLt, running_last (T1 m c) 31, sum_rows]
  refine Finset.sum_congr rfl fun b _ => ?_
  have hb : b.val < cfg0.N := lt_of_lt_of_eq b.isLt (show cfg0.N = 32 from N_0).symm
  unfold T1
  rw [dif_pos hb, tile1_eq]
  rfl

theorem acc2_last (c : Dev nD) :
    (accs m c 31 tLast.isLt).2 (ix2 (0 : Fin 1) (0 : Fin 1)) = ∑ n : Fin 65536, gapSq (Z2 m c n) (G2 m c) (G1 m c) (B2 m c n) := by
  rw [acc2_running m c 31 tLast.isLt, running_last (T2 m c) 31, sum_rows]
  refine Finset.sum_congr rfl fun b _ => ?_
  have hb : b.val < cfg0.N := lt_of_lt_of_eq b.isLt (show cfg0.N = 32 from N_0).symm
  unfold T2
  rw [dif_pos hb, tile2_eq]
  rfl

/-- The output's block after the last point. -/
abbrev result (c : Dev nD) : Buf (Elt Ideal) ((c : Thread nD τ).loc main_v2) :=
  k0_pay2 (accs m c 31 tLast.isLt).1 (accs m c 31 tLast.isLt).2

/-- Its one element is the loss. -/
theorem result_apply (c : Dev nD) :
    result m c (ix2 (0 : Fin 1) (0 : Fin 1)) = loss (Z1 m c) (Z2 m c) (G1 m c) (G2 m c) (B1 m c) (B2 m c) := by
  show k0_pay2 (F := Ideal) _ _ (ix2 (0 : Fin 1) (0 : Fin 1)) = _
  rw [pay2_apply, acc1_last, acc2_last]
  rfl

/-- The one write-back, after the last point, writes it. -/
theorem flushed_eq (c : Dev nD) (t : Fin cfg0.N) (hf : (cfg0.win 6).flush t = true) :
    (dats m 0 c).flushed 6 t = ((cfg0.win 6).blk t).view.read (Elt Ideal) (result m c) := by
  have hN : cfg0.N = 32 := N_0
  have h31 : t.val = 31 := by have := (flush0_6 t).mp hf; have := t.isLt; omega
  obtain rfl : t = tLast := Fin.ext h31
  show (cfg0.win 6).cut (grid0.coords tLast) ((dats m 0 c).after 6 tLast) = _
  rw [after0_6, outsAt_eq]
  obtain ⟨-, -, -, -, -, -, -, -, -, -, -, -, e0, e1⟩ := idx_facts tLast
  have hz' : (fun a => win0_6.index tLast a * main_v2.ty.shape.size a) = fun _ => 0 := funext fun a => by
    match a with
    | ⟨0, _⟩ => show win0_6.index tLast (0 : Fin 2) * 1 = 0; omega
    | ⟨1, _⟩ => show win0_6.index tLast (1 : Fin 2) * 1 = 0; omega
  exact (Memref.read_access_unit_zero (Elt Ideal) main_v2 hz' (fun a => by rw [congrFun hz' a]; simp) (result m c)).symm

/-- So the output array ends holding it. -/
theorem final_out (c : Dev nD) : (dats m 0 c).arrAt 6 cfg0.N = result m c :=
  (dats m 0 c).arrAt_eq_of_cover 6 (result m c) (flushed_eq m c) fun i =>
    ⟨tLast, (flush0_6 tLast).mpr rfl, by
      show i ∈ ((View.whole main_v2).slice (win0_6.rect tLast)).set
      rw [View.set_slice_whole, Rect.mem_set_unit]
      intro a
      obtain ⟨-, -, -, -, -, -, -, -, -, -, -, -, e0, e1⟩ := idx_facts tLast
      have h0 : (i 0 : Nat) < 1 := (i 0).isLt
      have h1 : (i 1 : Nat) < 1 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [e0, show win0_6.xsize (grid0.coords tLast) 0 = 1 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [e1, show win0_6.xsize (grid0.coords tLast) 1 = 1 from by decide +kernel]; omega⟩

/-! ## The host's last line and the run -/

/-- The scalar the host reads off the output array is the loss. -/
theorem tail_eq (c : Dev nD) :
    Pipeline.afterTail₀ cfgs (dats m) 0 (V0 m) [hostOps1] c main_v3
      = fun _ => loss (Z1 m c) (Z2 m c) (G1 m c) (G2 m c) (B1 m c) (B2 m c) := by
  unfold Pipeline.afterTail₀
  show StableHlo.after hostOps1 _ (Proc.devRef .tc main_v3) = _
  after_results
  rw [(Pipeline.withArrays_arr spec0 launch0.win.arr_inj c _ _ 6).trans (final_out m c)]
  funext j
  refine (shapeCast_apply _ _ j (ix2 (0 : Fin 1) (0 : Fin 1)) (by rw [Shape.rowMajor_val_two]; simp [Shape.rowMajor]; exact (Shape.rowMajorPi_zero _ _).symm)).trans ?_
  exact result_apply m c

/-- The run, read: the result at the loss of the argument arrays, the arguments unchanged. -/
theorem run : θ_run defs (onTc (τ := τ) (main (F := Ideal))) ⟨m, fun _ => 0, ρ⟩ fun r => ∀ c : Dev nD,
      r.2.mem ((c : Thread nD τ).loc main_v3) = (fun _ => loss (Z1 m c) (Z2 m c) (G1 m c) (G2 m c) (B1 m c) (B2 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelValue

end
-- ==== Proof.RefValue.lean ====
/-
  The reference program computes the loss.

  Read one operation at a time, the reference builds the two one-hot masks, the four masked similarity matrices
  (a row of node features against a row of graph embeddings, times the mask), applies log 2 − softplus (−·) to every
  entry, sums each row over the graphs (a node's score), subtracts the scores pairwise, squares, sums over all nodes,
  takes the two square roots and adds them. Each layer below states one of these steps at explicit coordinates; the last
  theorem assembles them.
-/
import proofs.«128601_j49959059587770_1_alg».proof.Proof.Gen.ReferenceIdeal.Read
import proofs.«128601_j49959059587770_1_alg».proof.Proof.Loss
import Idealize.ShloMosaic.Lib.ValueIdx
import Idealize.ShloMosaic.PureOps.Ideal.Laws

noncomputable section

namespace Cert.RefValue

open Idealize.ShloMosaic Idealize.ShloMosaic.ValueIdx Cert.ReferenceIdeal Cert.ReferenceIdeal.Read Cert.Loss

/-! ## A sum over a rank-1 index set is the sum over its coordinate -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The one-hot masks -/

/-- The one-hot mask at node n, graph k: the label compared with k, the bit read as a number. -/
theorem mask_v0 (x0 : (⟨S65536, .i32⟩ : BufTy).Contents (Elt Ideal)) (n : Fin 65536) (k : Fin 512) :
    val_main_v0 (F := Ideal) x0 (ix2 n k) = hot (x0 (ix1 n)) (BitVec.ofNat 32 k.val) := by
  rw [val_main_v0_apply, val_main_call0_v4_apply, val_main_call0_v2_apply, val_main_call0_v0_apply,
    val_main_call0_v3_apply, val_main_call0_v1_apply]
  have e : idx_main_call0_v0 (idx_main_call0_v2 (ix2 n k)) = ix1 n :=
    funext fun a => Fin.ext (by match a with | ⟨0, _⟩ => rfl)
  rw [e]
  rfl

/-- The one-hot mask at node n, graph k: the label compared with k, the bit read as a number. -/
theorem mask_v1 (x1 : (⟨S65536, .i32⟩ : BufTy).Contents (Elt Ideal)) (n : Fin 65536) (k : Fin 512) :
    val_main_v1 (F := Ideal) x1 (ix2 n k) = hot (x1 (ix1 n)) (BitVec.ofNat 32 k.val) := by
  rw [val_main_v1_apply, val_main_call1_v4_apply, val_main_call1_v2_apply, val_main_call1_v0_apply,
    val_main_call1_v3_apply, val_main_call1_v1_apply]
  have e : idx_main_call1_v0 (idx_main_call1_v2 (ix2 n k)) = ix1 n :=
    funext fun a => Fin.ext (by match a with | ⟨0, _⟩ => rfl)
  rw [e]
  rfl

/-! ## The four masked similarity matrices -/

/-- The masked similarity of node n to graph k: the row of x2 against the row of x4, times the mask. -/
theorem sim_v4 (x0 : (⟨S65536, .i32⟩ : BufTy).Contents (Elt Ideal)) (x2 : (⟨S65536x256, .f32⟩ : BufTy).Contents (Elt Ideal)) (x4 : (⟨S512x256, .f32⟩ : BufTy).Contents (Elt Ideal)) (n : Fin 65536) (k : Fin 512) :
    val_main_v4 (F := Ideal) x0 x2 x4 (ix2 n k)
      = (∑ d : Fin 256, x2 (ix2 n d) * x4 (ix2 k d)) * hot (x0 (ix1 n)) (BitVec.ofNat 32 k.val) := by
  rw [val_main_v4_apply, val_main_v3_apply, mask_v0]
  have el : ∀ d : Fin 256, lidx_main_v3 (ix2 n k) d = ix2 n d := fun d =>
    funext fun a => Fin.ext (by match a with | ⟨0, _⟩ => rfl | ⟨1, _⟩ => rfl)
  have er : ∀ d : Fin 256, idx_main_v2 (ridx_main_v3 (ix2 n k) d) = ix2 k d := fun d =>
    funext fun a => Fin.ext (by match a with | ⟨0, _⟩ => rfl | ⟨1, _⟩ => rfl)
  simp only [val_main_v2_apply, el, er]
  rfl

/-- The masked similarity of node n to graph k: the row of x3 against the row of x5, times the mask. -/
theorem sim_v7 (x1 : (⟨S65536, .i32⟩ : BufTy).Contents (Elt Ideal)) (x3 : (⟨S65536x256, .f32⟩ : BufTy).Contents (Elt Ideal)) (x5 : (⟨S512x256, .f32⟩ : BufTy).Contents (Elt Ideal)) (n : Fin 65536) (k : Fin 512) :
    val_main_v7 (F := Ideal) x1 x3 x5 (ix2 n k)
      = (∑ d : Fin 256, x3 (ix2 n d) * x5 (ix2 k d)) * hot (x1 (ix1 n)) (BitVec.ofNat 32 k.val) := by
  rw [val_main_v7_apply, val_main_v6_apply, mask_v1]
  have el : ∀ d : Fin 256, lidx_main_v6 (ix2 n k) d = ix2 n d := fun d =>
    funext fun a => Fin.ext (by match a with | ⟨0, _⟩ => rfl | ⟨1, _⟩ => rfl)
  have er : ∀ d : Fin 256, idx_main_v5 (ridx_main_v6 (ix2 n k) d) = ix2 k d := fun d =>
    funext fun a => Fin.ext (by match a with | ⟨0, _⟩ => rfl | ⟨1, _⟩ => rfl)
  simp only [val_main_v5_apply, el, er]
  rfl

/-- The masked similarity of node n to graph k: the row of x2 against the row of x5, times the mask. -/
theorem sim_v10 (x0 : (⟨S65536, .i32⟩ : BufTy).Contents (Elt Ideal)) (x2 : (⟨S65536x256, .f32⟩ : BufTy).Contents (Elt Ideal)) (x5 : (⟨S512x256, .f32⟩ : BufTy).Contents (Elt Ideal)) (n : Fin 65536) (k : Fin 512) :
    val_main_v10 (F := Ideal) x0 x2 x5 (ix2 n k)
      = (∑ d : Fin 256, x2 (ix2 n d) * x5 (ix2 k d)) * hot (x0 (ix1 n)) (BitVec.ofNat 32 k.val) := by
  rw [val_main_v10_apply, val_main_v9_apply, mask_v0]
  have el : ∀ d : Fin 256, lidx_main_v9 (ix2 n k) d = ix2 n d := fun d =>
    funext fun a => Fin.ext (by match a with | ⟨0, _⟩ => rfl | ⟨1, _⟩ => rfl)
  have er : ∀ d : Fin 256, idx_main_v8 (ridx_main_v9 (ix2 n k) d) = ix2 k d := fun d =>
    funext fun a => Fin.ext (by match a with | ⟨0, _⟩ => rfl | ⟨1, _⟩ => rfl)
  simp only [val_main_v8_apply, el, er]
  rfl

/-- The masked similarity of node n to graph k: the row of x3 against the row of x4, times the mask. -/
theorem sim_v13 (x1 : (⟨S65536, .i32⟩ : BufTy).Contents (Elt Ideal)) (x3 : (⟨S65536x256, .f32⟩ : BufTy).Contents (Elt Ideal)) (x4 : (⟨S512x256, .f32⟩ : BufTy).Contents (Elt Ideal)) (n : Fin 65536) (k : Fin 512) :
    val_main_v13 (F := Ideal) x1 x3 x4 (ix2 n k)
      = (∑ d : Fin 256, x3 (ix2 n d) * x4 (ix2 k d)) * hot (x1 (ix1 n)) (BitVec.ofNat 32 k.val) := by
  rw [val_main_v13_apply, val_main_v12_apply, mask_v1]
  have el : ∀ d : Fin 256, lidx_main_v12 (ix2 n k) d = ix2 n d := fun d =>
    funext fun a => Fin.ext (by match a with | ⟨0, _⟩ => rfl | ⟨1, _⟩ => rfl)
  have er : ∀ d : Fin 256, idx_main_v11 (ridx_main_v12 (ix2 n k) d) = ix2 k d := fun d =>
    funext fun a => Fin.ext (by match a with | ⟨0, _⟩ => rfl | ⟨1, _⟩ => rfl)
  simp only [val_main_v11_apply, el, er]
  rfl

/-! ## log 2 − softplus (−·), entry by entry -/

/-- log 2 minus the softplus of the negated similarity, entry by entry: the positive expectation of the similarity. -/
theorem jsd_v17 (x0 : (⟨S65536, .i32⟩ : BufTy).Contents (Elt Ideal)) (x2 : (⟨S65536x256, .f32⟩ : BufTy).Contents (Elt Ideal)) (x4 : (⟨S512x256, .f32⟩ : BufTy).Contents (Elt Ideal)) (i : S65536x512.Idx) :
    val_main_v17 (F := Ideal) x0 x2 x4 i = jsd (val_main_v4 (F := Ideal) x0 x2 x4 i) := by
  rw [val_main_v17_apply, val_main_v16_apply, val_main_cst_apply, val_main_v15_apply,
    val_main_call2_v4_apply, val_main_call2_v6_apply, val_main_call2_v11_apply, val_main_call2_v1_apply,
    val_main_call2_v10_apply, val_main_call2_v9_apply, val_main_call2_v8_apply, val_main_call2_v7_apply,
    val_main_call2_v3_apply, val_main_call2_v0_apply, val_main_call2_v2_apply, val_main_call2_v5_apply,
    val_main_call2_cst_apply, val_main_v14_apply]
  exact spB_neg _

/-- log 2 minus the softplus of the negated similarity, entry by entry: the positive expectation of the similarity. -/
theorem jsd_v22 (x0 : (⟨S65536, .i32⟩ : BufTy).Contents (Elt Ideal)) (x2 : (⟨S65536x256, .f32⟩ : BufTy).Contents (Elt Ideal)) (x5 : (⟨S512x256, .f32⟩ : BufTy).Contents (Elt Ideal)) (i : S65536x512.Idx) :
    val_main_v22 (F := Ideal) x0 x2 x5 i = jsd (val_main_v10 (F := Ideal) x0 x2 x5 i) := by
  rw [val_main_v22_apply, val_main_v21_apply, val_main_cst_1_apply, val_main_v20_apply,
    val_main_call3_v4_apply, val_main_call3_v6_apply, val_main_call3_v11_apply, val_main_call3_v1_apply,
    val_main_call3_v10_apply, val_main_call3_v9_apply, val_main_call3_v8_apply, val_main_call3_v7_apply,
    val_main_call3_v3_apply, val_main_call3_v0_apply, val_main_call3_v2_apply, val_main_call3_v5_apply,
    val_main_call3_cst_apply, val_main_v19_apply]
  exact spB_neg _

/-- log 2 minus the softplus of the negated similarity, entry by entry: the positive expectation of the similarity. -/
theorem jsd_v27 (x1 : (⟨S65536, .i32⟩ : BufTy).Contents (Elt Ideal)) (x3 : (⟨S65536x256, .f32⟩ : BufTy).Contents (Elt Ideal)) (x5 : (⟨S512x256, .f32⟩ : BufTy).Contents (Elt Ideal)) (i : S65536x512.Idx) :
    val_main_v27 (F := Ideal) x1 x3 x5 i = jsd (val_main_v7 (F := Ideal) x1 x3 x5 i) := by
  rw [val_main_v27_apply, val_main_v26_apply, val_main_cst_3_apply, val_main_v25_apply,
    val_main_call4_v4_apply, val_main_call4_v6_apply, val_main_call4_v11_apply, val_main_call4_v1_apply,
    val_main_call4_v10_apply, val_main_call4_v9_apply, val_main_call4_v8_apply, val_main_call4_v7_apply,
    val_main_call4_v3_apply, val_main_call4_v0_apply, val_main_call4_v2_apply, val_main_call4_v5_apply,
    val_main_call4_cst_apply, val_main_v24_apply]
  exact spB_neg _

/-- log 2 minus the softplus of the negated similarity, entry by entry: the positive expectation of the similarity. -/
theorem jsd_v32 (x1 : (⟨S65536, .i32⟩ : BufTy).Contents (Elt Ideal)) (x3 : (⟨S65536x256, .f32⟩ : BufTy).Contents (Elt Ideal)) (x4 : (⟨S512x256, .f32⟩ : BufTy).Contents (Elt Ideal)) (i : S65536x512.Idx) :
    val_main_v32 (F := Ideal) x1 x3 x4 i = jsd (val_main_v13 (F := Ideal) x1 x3 x4 i) := by
  rw [val_main_v32_apply, val_main_v31_apply, val_main_cst_5_apply, val_main_v30_apply,
    val_main_call5_v4_apply, val_main_call5_v6_apply, val_main_call5_v11_apply, val_main_call5_v1_apply,
    val_main_call5_v10_apply, val_main_call5_v9_apply, val_main_call5_v8_apply, val_main_call5_v7_apply,
    val_main_call5_v3_apply, val_main_call5_v0_apply, val_main_call5_v2_apply, val_main_call5_v5_apply,
    val_main_call5_cst_apply, val_main_v29_apply]
  exact spB_neg _

/-! ## The row sums are the scores -/

/-- The row sum over the graphs: node n's score of x2 against x4. -/
theorem score_v18 (x0 : (⟨S65536, .i32⟩ : BufTy).Contents (Elt Ideal)) (x2 : (⟨S65536x256, .f32⟩ : BufTy).Contents (Elt Ideal)) (x4 : (⟨S512x256, .f32⟩ : BufTy).Contents (Elt Ideal)) (n : Fin 65536) :
    val_main_v18 (F := Ideal) x0 x2 x4 (ix1 n)
      = score (fun d => x2 (ix2 n d)) (fun k d => x4 (ix2 k d)) (x0 (ix1 n)) := by
  rw [val_main_v18_apply, val_main_cst_0_apply, Ideal.ofBits_def, Ideal.ofBits_zero_f32, zero_add]
  have e : ∀ k : Fin 512, idx_main_v18 (ix1 n) k = ix2 n k := fun k =>
    funext fun a => Fin.ext (by match a with | ⟨0, _⟩ => rfl | ⟨1, _⟩ => rfl)
  simp only [e, jsd_v17, sim_v4]
  rfl

/-- The row sum over the graphs: node n's score of x2 against x5. -/
theorem score_v23 (x0 : (⟨S65536, .i32⟩ : BufTy).Contents (Elt Ideal)) (x2 : (⟨S65536x256, .f32⟩ : BufTy).Contents (Elt Ideal)) (x5 : (⟨S512x256, .f32⟩ : BufTy).Contents (Elt Ideal)) (n : Fin 65536) :
    val_main_v23 (F := Ideal) x0 x2 x5 (ix1 n)
      = score (fun d => x2 (ix2 n d)) (fun k d => x5 (ix2 k d)) (x0 (ix1 n)) := by
  rw [val_main_v23_apply, val_main_cst_2_apply, Ideal.ofBits_def, Ideal.ofBits_zero_f32, zero_add]
  have e : ∀ k : Fin 512, idx_main_v23 (ix1 n) k = ix2 n k := fun k =>
    funext fun a => Fin.ext (by match a with | ⟨0, _⟩ => rfl | ⟨1, _⟩ => rfl)
  simp only [e, jsd_v22, sim_v10]
  rfl

/-- The row sum over the graphs: node n's score of x3 against x5. -/
theorem score_v28 (x1 : (⟨S65536, .i32⟩ : BufTy).Contents (Elt Ideal)) (x3 : (⟨S65536x256, .f32⟩ : BufTy).Contents (Elt Ideal)) (x5 : (⟨S512x256, .f32⟩ : BufTy).Contents (Elt Ideal)) (n : Fin 65536) :
    val_main_v28 (F := Ideal) x1 x3 x5 (ix1 n)
      = score (fun d => x3 (ix2 n d)) (fun k d => x5 (ix2 k d)) (x1 (ix1 n)) := by
  rw [val_main_v28_apply, val_main_cst_4_apply, Ideal.ofBits_def, Ideal.ofBits_zero_f32, zero_add]
  have e : ∀ k : Fin 512, idx_main_v28 (ix1 n) k = ix2 n k := fun k =>
    funext fun a => Fin.ext (by match a with | ⟨0, _⟩ => rfl | ⟨1, _⟩ => rfl)
  simp only [e, jsd_v27, sim_v7]
  rfl

/-- The row sum over the graphs: node n's score of x3 against x4. -/
theorem score_v33 (x1 : (⟨S65536, .i32⟩ : BufTy).Contents (Elt Ideal)) (x3 : (⟨S65536x256, .f32⟩ : BufTy).Contents (Elt Ideal)) (x4 : (⟨S512x256, .f32⟩ : BufTy).Contents (Elt Ideal)) (n : Fin 65536) :
    val_main_v33 (F := Ideal) x1 x3 x4 (ix1 n)
      = score (fun d => x3 (ix2 n d)) (fun k d => x4 (ix2 k d)) (x1 (ix1 n)) := by
  rw [val_main_v33_apply, val_main_cst_6_apply, Ideal.ofBits_def, Ideal.ofBits_zero_f32, zero_add]
  have e : ∀ k : Fin 512, idx_main_v33 (ix1 n) k = ix2 n k := fun k =>
    funext fun a => Fin.ext (by match a with | ⟨0, _⟩ => rfl | ⟨1, _⟩ => rfl)
  simp only [e, jsd_v32, sim_v13]
  rfl

/-! ## The squared gaps and their totals -/

/-- The squared gap of node n's two scores. -/
theorem gap_v35 (x0 : (⟨S65536, .i32⟩ : BufTy).Contents (Elt Ideal)) (x2 : (⟨S65536x256, .f32⟩ : BufTy).Contents (Elt Ideal)) (x4 : (⟨S512x256, .f32⟩ : BufTy).Contents (Elt Ideal)) (x5 : (⟨S512x256, .f32⟩ : BufTy).Contents (Elt Ideal)) (n : Fin 65536) :
    val_main_v35 (F := Ideal) x0 x2 x4 x5 (ix1 n)
      = gapSq (fun d => x2 (ix2 n d)) (fun k d => x4 (ix2 k d)) (fun k d => x5 (ix2 k d)) (x0 (ix1 n)) := by
  rw [val_main_v35_apply, val_main_v34_apply, score_v18, score_v23]
  rfl

/-- The sum of the squared gaps over all nodes. -/
theorem total_v36 (x0 : (⟨S65536, .i32⟩ : BufTy).Contents (Elt Ideal)) (x2 : (⟨S65536x256, .f32⟩ : BufTy).Contents (Elt Ideal)) (x4 : (⟨S512x256, .f32⟩ : BufTy).Contents (Elt Ideal)) (x5 : (⟨S512x256, .f32⟩ : BufTy).Contents (Elt Ideal)) (i : S_.Idx) :
    val_main_v36 (F := Ideal) x0 x2 x4 x5 i
      = ∑ n : Fin 65536, gapSq (fun d => x2 (ix2 n d)) (fun k d => x4 (ix2 k d)) (fun k d => x5 (ix2 k d)) (x0 (ix1 n)) := by
  rw [val_main_v36_apply, val_main_cst_7_apply, Ideal.ofBits_def, Ideal.ofBits_zero_f32, zero_add, sum_idx1]
  simp only [gap_v35]

/-- The squared gap of node n's two scores. -/
theorem gap_v39 (x1 : (⟨S65536, .i32⟩ : BufTy).Contents (Elt Ideal)) (x3 : (⟨S65536x256, .f32⟩ : BufTy).Contents (Elt Ideal)) (x4 : (⟨S512x256, .f32⟩ : BufTy).Contents (Elt Ideal)) (x5 : (⟨S512x256, .f32⟩ : BufTy).Contents (Elt Ideal)) (n : Fin 65536) :
    val_main_v39 (F := Ideal) x1 x3 x4 x5 (ix1 n)
      = gapSq (fun d => x3 (ix2 n d)) (fun k d => x5 (ix2 k d)) (fun k d => x4 (ix2 k d)) (x1 (ix1 n)) := by
  rw [val_main_v39_apply, val_main_v38_apply, score_v28, score_v33]
  rfl

/-- The sum of the squared gaps over all nodes. -/
theorem total_v40 (x1 : (⟨S65536, .i32⟩ : BufTy).Contents (Elt Ideal)) (x3 : (⟨S65536x256, .f32⟩ : BufTy).Contents (Elt Ideal)) (x4 : (⟨S512x256, .f32⟩ : BufTy).Contents (Elt Ideal)) (x5 : (⟨S512x256, .f32⟩ : BufTy).Contents (Elt Ideal)) (i : S_.Idx) :
    val_main_v40 (F := Ideal) x1 x3 x4 x5 i
      = ∑ n : Fin 65536, gapSq (fun d => x3 (ix2 n d)) (fun k d => x5 (ix2 k d)) (fun k d => x4 (ix2 k d)) (x1 (ix1 n)) := by
  rw [val_main_v40_apply, val_main_cst_8_apply, Ideal.ofBits_def, Ideal.ofBits_zero_f32, zero_add, sum_idx1]
  simp only [gap_v39]

/-! ## The reference is the loss -/

/-- The reference program's value is the loss of the six arrays, read by coordinates. -/
theorem reference_is_loss
    (x0 x1 : (⟨S65536, .i32⟩ : BufTy).Contents (Elt Ideal)) (x2 x3 : (⟨S65536x256, .f32⟩ : BufTy).Contents (Elt Ideal))
    (x4 x5 : (⟨S512x256, .f32⟩ : BufTy).Contents (Elt Ideal)) :
    Cert.ReferenceIdeal.Read.val_main_v42 (F := Ideal) x0 x1 x2 x3 x4 x5
      = fun _ => Cert.Loss.loss (fun n d => x2 (ix2 n d)) (fun n d => x3 (ix2 n d)) (fun k d => x4 (ix2 k d)) (fun k d => x5 (ix2 k d))
          (fun n => x0 (ix1 n)) (fun n => x1 (ix1 n)) := by
  funext i
  rw [val_main_v42_apply, val_main_v37_apply, val_main_v41_apply, total_v36, total_v40]
  simp only [Ideal.addf_def, Ideal.hostUnary_sqrt_def, loss]

end Cert.RefValue

end
-- ==== Proof.lean ====
/-
  The certificate: the tiled kernel and the plain reference compute one loss.

  Both programs form, for every node, its masked similarities to the 512 graph embeddings, the node's score
  ∑ k, (log2 − softplus (− s k)) against each of two embedding sets, and return
  sqrt (∑ n, (J₁₁ n − J₁₂ n)²) + sqrt (∑ n, (J₂₂ n − J₂₁ n)²).  The reference takes the node sums at once; the kernel
  takes them in 32 tiles of 2048 nodes, carrying two one-element accumulators across the grid and storing the sum of their
  square roots after every tile.  Over the extended reals the two are equal by re-indexing a finite sum (commutativity
  and associativity of +); no finiteness of the inputs is used.

  The frames of the two kernel programs are the generated frame certificates; the reference's frame is its generated run
  with the result dropped; nothing was rewritten by the idealization, so its soundness claim is trivial.
-/
import proofs.«128601_j49959059587770_1_alg».proof.Defs
import proofs.«128601_j49959059587770_1_alg».proof.Proof.Gen.Kernel
import proofs.«128601_j49959059587770_1_alg».proof.Proof.Gen.Kernel.Skeleton
import proofs.«128601_j49959059587770_1_alg».proof.Proof.Gen.Kernel.Launch
import proofs.«128601_j49959059587770_1_alg».proof.Proof.Gen.Kernel.Points
import proofs.«128601_j49959059587770_1_alg».proof.Proof.Gen.Kernel.Frame
import proofs.«128601_j49959059587770_1_alg».proof.Proof.Gen.KernelIdeal
import proofs.«128601_j49959059587770_1_alg».proof.Proof.Gen.KernelIdeal.Skeleton
import proofs.«128601_j49959059587770_1_alg».proof.Proof.Gen.KernelIdeal.Launch
import proofs.«128601_j49959059587770_1_alg».proof.Proof.Gen.KernelIdeal.Points
import proofs.«128601_j49959059587770_1_alg».proof.Proof.Gen.KernelIdeal.Frame
import proofs.«128601_j49959059587770_1_alg».proof.Proof.Gen.ReferenceIdeal
import proofs.«128601_j49959059587770_1_alg».proof.Proof.Gen.ReferenceIdeal.Run
import proofs.«128601_j49959059587770_1_alg».proof.Proof.Gen.ReferenceIdeal.Read
import proofs.«128601_j49959059587770_1_alg».proof.Proof.Gen.Pre_finite_inputs
import proofs.«128601_j49959059587770_1_alg».proof.Proof.KernelValue
import proofs.«128601_j49959059587770_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values the kernel's result is the loss of its argument arrays (the kernel's run, read) and so is the
    reference's (its generated run, read); the arguments agree. -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v42_eq, Cert.RefValue.reference_is_loss, a0, a1, a2, a3, a4, a5]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
